-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v95)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v95) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x800000 : Shape := ⟨2, ![2, 800000]⟩
abbrev S800000 : Shape := ⟨1, ![800000]⟩
abbrev S512x128 : Shape := ⟨2, ![512, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S800000 : S_.BroadcastsInDim S800000 (![] : Fin 0 → Fin S800000.rank)
  reducesTo_S800000_S_d0 : S800000.ReducesTo [0] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S128x40 .f32) (main_arg6 : FVec F S40 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x40 .f32 := Host.absf main_arg5
  let main_cst_6 : FVec F S_ .f32 := constant S_ .f32 0x7F800000#32
  let main_v20 : FVec F S128x40 .f32 := broadcastInDim S128x40 ![] bcast_S_S128x40 main_cst_6
  let main_v21 : IVec S128x40 1 := cmpf .olt main_v19 main_v20
  let main_c_7 : IVec S_ 1 := constantI S_ 1 1#1
  let main_v22 : IVec S_ 1 := (fun x v => Host.reduce IntOp.andi x v reducesTo_S128x40_S_d0_1 h_S_) main_v21 main_c_7
  let main_v23 : IVec S_ 1 := andi main_v18 main_v22
  let main_v24 : FVec F S40 .f32 := Host.absf main_arg6
  let main_cst_8 : FVec F S_ .f32 := constant S_ .f32 0x7F800000#32
  let main_v25 : FVec F S40 .f32 := broadcastInDim S40 ![] bcast_S_S40 main_cst_8
  let main_v26 : IVec S40 1 := cmpf .olt main_v24 main_v25
  let main_c_9 : IVec S_ 1 := constantI S_ 1 1#1
  let main_v27 : IVec S_ 1 := (fun x v => Host.reduce IntOp.andi x v reducesTo_S40_S_d0 h_S_) main_v26 main_c_9
  let main_v28 : IVec S_ 1 := andi main_v23 main_v27
  main_v28

def fn {F : FTy → Type} [FloatOps F] (main_arg0 : FVec F S50000x512 .f32) (main_arg1 : IVec S2x800000 32) (main_arg2 : FVec F S800000 .f32) (main_arg3 : FVec F S512x128 .f32) (main_arg4 : FVec F S128 .f32) (main_arg5 : FVec F S128x40 .f32) (main_arg6 : FVec F S40 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S512x128 .f32 := Host.absf main_arg3
  let main_cst_2 : FVec F S_ .f32 := constant S_ .f32 0x7F800000#32
  let main_v10 : FVec F S512x128 .f32 := broadcastInDim S512x128 ![] bcast_S_S512x128 main_cst_2
  let main_v11 : IVec S512x128 1 := cmpf .olt main_v9 main_v10
  let main_c_3 : IVec S_ 1 := constantI S_ 1 1#1
  let main_v12 : IVec S_ 1 := (fun x v => Host.reduce IntOp.andi x v reducesTo_S512x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S50000x512 : Shape := ⟨2, ![50000, 512]⟩
abbrev S2x800000 : Shape := ⟨2, ![2, 800000]⟩
abbrev S800000 : Shape := ⟨1, ![800000]⟩
abbrev S512x128 : Shape := ⟨2, ![512, 128]⟩
abbrev S128 : Shape := ⟨1, ![128]⟩
abbrev S128x40 : Shape := ⟨2, ![128, 40]⟩
abbrev S40 : Shape := ⟨1, ![40]⟩
abbrev S_ : Shape := ⟨0, ![]⟩
abbrev S50000 : Shape := ⟨1, ![50000]⟩
abbrev S1x800000 : Shape := ⟨2, ![1, 800000]⟩
abbrev S850000 : Shape := ⟨1, ![850000]⟩
abbrev S850000x1 : Shape := ⟨2, ![850000, 1]⟩
abbrev S50000x128 : Shape := ⟨2, ![50000, 128]⟩
abbrev S5000x512 : Shape := ⟨2, ![5000, 512]⟩
abbrev S5000x128 : Shape := ⟨2, ![5000, 128]⟩
abbrev S850000x128 : Shape := ⟨2, ![850000, 128]⟩
abbrev S1x128 : Shape := ⟨2, ![1, 128]⟩
abbrev S50000x40 : Shape := ⟨2, ![50000, 40]⟩
abbrev S5000x40 : Shape := ⟨2, ![5000, 40]⟩
abbrev S850000x40 : Shape := ⟨2, ![850000, 40]⟩
abbrev S1x40 : Shape := ⟨2, ![1, 40]⟩
abbrev S5000 : Shape := ⟨1, ![5000]⟩
abbrev S5000x1 : Shape := ⟨2, ![5000, 1]⟩

abbrev nBuf : Space → Nat
  | .hbm => 130
  | .vmem => 16
  | .smem => 0
  | _ => 0

abbrev hbmTy0_0 (i : Nat) : BufTy := match i % 128 with
  | 0 => ⟨S50000x512, .f32⟩
  | 1 => ⟨S2x800000, .i32⟩
  | 2 => ⟨S800000, .f32⟩
  | 3 => ⟨S512x128, .f32⟩
  | 4 => ⟨S128, .f32⟩
  | 5 => ⟨S128x40, .f32⟩
  | 6 => ⟨S40, .f32⟩
  | 7 => ⟨S_, .f32⟩
  | 8 => ⟨S800000, .f32⟩
  | 9 => ⟨S50000, .i32⟩
  | 10 => ⟨S1x800000, .i32⟩
  | 11 => ⟨S800000, .i32⟩
  | 12 => ⟨S850000, .i32⟩
  | 13 => ⟨S1x800000, .i32⟩
  | 14 => ⟨S800000, .i32⟩
  | 15 => ⟨S850000, .i32⟩
  | 16 => ⟨S_, .f32⟩
  | 17 => ⟨S50000, .f32⟩
  | 18 => ⟨S850000, .f32⟩
  | 19 => ⟨S_, .f32⟩
  | 20 => ⟨S50000, .f32⟩
  | 21 => ⟨S850000x1, .i32⟩
  | 22 => ⟨S50000, .f32⟩
  | 23 => ⟨S_, .f32⟩
  | 24 => ⟨S50000, .f32⟩
  | 25 => ⟨S50000, .i1⟩
  | 26 => ⟨S50000, .f32⟩
  | 27 => ⟨S_, .f32⟩
  | 28 => ⟨S_, .f32⟩
  | 29 => ⟨S50000, .f32⟩
  | 30 => ⟨S50000, .f32⟩
  | 31 => ⟨S_, .i32⟩
  | 32 => ⟨S850000, .i32⟩
  | 33 => ⟨S850000, .i1⟩
  | 34 => ⟨S_, .i32⟩
  | 35 => ⟨S850000, .i32⟩
  | 36 => ⟨S850000, .i32⟩
  | 37 => ⟨S850000, .i32⟩
  | 38 => ⟨S850000x1, .i32⟩
  | 39 => ⟨S850000, .f32⟩
  | 40 => ⟨S850000, .f32⟩
  | 41 => ⟨S_, .i32⟩
  | 42 => ⟨S850000, .i32⟩
  | 43 => ⟨S850000, .i1⟩
  | 44 => ⟨S_, .i32⟩
  | 45 => ⟨S850000, .i32⟩
  | 46 => ⟨S850000, .i32⟩
  | 47 => ⟨S850000, .i32⟩
  | 48 => ⟨S850000x1, .i32⟩
  | 49 => ⟨S850000, .f32⟩
  | 50 => ⟨S850000, .f32⟩
  | 51 => ⟨S50000x128, .f32⟩
  | 52 => ⟨S_, .i32⟩
  | 53 => ⟨S850000, .i32⟩
  | 54 => ⟨S850000, .i1⟩
  | 55 => ⟨S_, .i32⟩
  | 56 => ⟨S850000, .i32⟩
  | 57 => ⟨S850000, .i32⟩
  | 58 => ⟨S850000, .i32⟩
  | 59 => ⟨S850000x1, .i32⟩
  | 60 => ⟨S850000x128, .f32⟩
  | 61 => ⟨S850000x1, .f32⟩
  | 62 => ⟨S850000x128, .f32⟩
  | 63 => ⟨S850000x128, .f32⟩
  | 64 => ⟨S_, .f32⟩
  | 65 => ⟨S50000x128, .f32⟩
  | 66 => ⟨S850000x1, .i32⟩
  | 67 => ⟨S50000x128, .f32⟩
  | 68 => ⟨S50000, .i32⟩
  | 69 => ⟨S1x800000, .i32⟩
  | 70 => ⟨S800000, .i32⟩
  | 71 => ⟨S850000, .i32⟩
  | 72 => ⟨S1x800000, .i32⟩
  | 73 => ⟨S800000, .i32⟩
  | 74 => ⟨S850000, .i32⟩
  | 75 => ⟨S_, .f32⟩
  | 76 => ⟨S50000, .f32⟩
  | 77 => ⟨S850000, .f32⟩
  | 78 => ⟨S_, .f32⟩
  | 79 => ⟨S50000, .f32⟩
  | 80 => ⟨S850000x1, .i32⟩
  | 81 => ⟨S50000, .f32⟩
  | 82 => ⟨S_, .f32⟩
  | 83 => ⟨S50000, .f32⟩
  | 84 => ⟨S50000, .i1⟩
  | 85 => ⟨S50000, .f32⟩
  | 86 => ⟨S_, .f32⟩
  | 87 => ⟨S_, .f32⟩
  | 88 => ⟨S50000, .f32⟩
  | 89 => ⟨S50000, .f32⟩
  | 90 => ⟨S_, .i32⟩
  | 91 => ⟨S850000, .i32⟩
  | 92 => ⟨S850000, .i1⟩
  | 93 => ⟨S_, .i32⟩
  | 94 => ⟨S850000, .i32⟩
  | 95 => ⟨S850000, .i32⟩
  | 96 => ⟨S850000, .i32⟩
  | 97 => ⟨S850000x1, .i32⟩
  | 98 => ⟨S850000, .f32⟩
  | 99 => ⟨S850000, .f32⟩
  | 100 => ⟨S_, .i32⟩
  | 101 => ⟨S850000, .i32⟩
  | 102 => ⟨S850000, .i1⟩
  | 103 => ⟨S_, .i32⟩
  | 104 => ⟨S850000, .i32⟩
  | 105 => ⟨S850000, .i32⟩
  | 106 => ⟨S850000, .i32⟩
  | 107 => ⟨S850000x1, .i32⟩
  | 108 => ⟨S850000, .f32⟩
  | 109 => ⟨S850000, .f32⟩
  | 110 => ⟨S1x128, .f32⟩
  | 111 => ⟨S50000x40, .f32⟩
  | 112 => ⟨S_, .i32⟩
  | 113 => ⟨S850000, .i32⟩
  | 114 => ⟨S850000, .i1⟩
  | 115 => ⟨S_, .i32⟩
  | 116 => ⟨S850000, .i32⟩
  | 117 => ⟨S850000, .i32⟩
  | 118 => ⟨S850000, .i32⟩
  | 119 => ⟨S850000x1, .i32⟩
  | 120 => ⟨S850000x40, .f32⟩
  | 121 => ⟨S850000x1, .f32⟩
  | 122 => ⟨S850000x40, .f32⟩
  | 123 => ⟨S850000x40, .f32⟩
  | 124 => ⟨S_, .f32⟩
  | 125 => ⟨S50000x40, .f32⟩
  | 126 => ⟨S850000x1, .i32⟩
  | 127 => ⟨S50000x40, .f32⟩
  | _ => ⟨S50000x512, .f32⟩

abbrev hbmTy0_1 (i : Nat) : BufTy := match i % 128 with
  | 0 => ⟨S1x40, .f32⟩
  | 1 => ⟨S50000x40, .f32⟩
  | _ => ⟨S50000x512, .f32⟩

abbrev hbmTy (i : Nat) : BufTy := match i / 128 with
  | 0 => hbmTy0_0 i
  | 1 => hbmTy0_1 i
  | _ => ⟨S50000x512, .f32⟩

abbrev bufTy : (tb : Table) → Fin (tcTables nBuf tb) → BufTy
  | .hbm, ⟨i, _⟩ => hbmTy i
  | .local _ .vmem, ⟨0, _⟩ => ⟨S5000x512, .f32⟩
  | .local _ .vmem, ⟨1, _⟩ => ⟨S5000x512, .f32⟩
  | .local _ .vmem, ⟨2, _⟩ => ⟨S512x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S128x40, .f32⟩
  | .local _ .vmem, ⟨9, _⟩ => ⟨S5000x40, .f32⟩
  | .local _ .vmem, ⟨10, _⟩ => ⟨S5000x40, .f32⟩
  | .local _ .vmem, ⟨11, _⟩ => ⟨S5000x40, .f32⟩
  | .local _ .vmem, ⟨12, _⟩ => ⟨S5000x40, .f32⟩
  | .local _ .vmem, ⟨13, _⟩ => ⟨S1x40, .f32⟩
  | .local _ .vmem, ⟨14, _⟩ => ⟨S5000x40, .f32⟩
  | .local _ .vmem, ⟨15, _⟩ => ⟨S5000x40, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_c_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_5 : Ref sig .tc := ⟨.hbm, 41, rfl⟩
abbrev main_v25 : Ref sig .tc := ⟨.hbm, 42, rfl⟩
abbrev main_v26 : Ref sig .tc := ⟨.hbm, 43, rfl⟩
abbrev main_c_6 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_c_7 : Ref sig .tc := ⟨.hbm, 52, rfl⟩
abbrev main_v34 : Ref sig .tc := ⟨.hbm, 53, rfl⟩
abbrev main_v35 : Ref sig .tc := ⟨.hbm, 54, rfl⟩
abbrev main_c_8 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_9 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_10 : Ref sig .tc := ⟨.hbm, 75, rfl⟩
abbrev main_v54 : Ref sig .tc := ⟨.hbm, 76, rfl⟩
abbrev main_v55 : Ref sig .tc := ⟨.hbm, 77, rfl⟩
abbrev main_cst_11 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_12 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_13 : Ref sig .tc := ⟨.hbm, 86, rfl⟩
abbrev main_call1_v0 : Ref sig .tc := ⟨.hbm, 87, rfl⟩
abbrev main_call1_v1 : Ref sig .tc := ⟨.hbm, 88, rfl⟩
abbrev main_v62 : Ref sig .tc := ⟨.hbm, 89, rfl⟩
abbrev main_c_14 : Ref sig .tc := ⟨.hbm, 90, rfl⟩
abbrev main_v63 : Ref sig .tc := ⟨.hbm, 91, rfl⟩
abbrev main_v64 : Ref sig .tc := ⟨.hbm, 92, rfl⟩
abbrev main_c_15 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_c_16 : Ref sig .tc := ⟨.hbm, 100, rfl⟩
abbrev main_v71 : Ref sig .tc := ⟨.hbm, 101, rfl⟩
abbrev main_v72 : Ref sig .tc := ⟨.hbm, 102, rfl⟩
abbrev main_c_17 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_c_18 : Ref sig .tc := ⟨.hbm, 112, rfl⟩
abbrev main_v81 : Ref sig .tc := ⟨.hbm, 113, rfl⟩
abbrev main_v82 : Ref sig .tc := ⟨.hbm, 114, rfl⟩
abbrev main_c_19 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_cst_20 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x40 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x40 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x40 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  bcast_S_S800000 : S_.BroadcastsInDim S800000 (![] : Fin 0 → Fin S800000.rank)
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  inb_S5000x512_S5000x512_0_0 : ∀ a, (![0, 0] : Fin 2 → Nat) a + S5000x512.size a ≤ S5000x512.size a
  h_S5000x512 : 0 < S5000x512.numel
  inb_S512x128_S512x128_0_0 : ∀ a, (![0, 0] : Fin 2 → Nat) a + S512x128.size a ≤ S512x128.size a
  h_S512x128 : 0 < S512x128.numel
  inb_S5000x128_S5000x128_0_0 : ∀ a, (![0, 0] : Fin 2 → Nat) a + S5000x128.size a ≤ S5000x128.size a
  h_S5000x128 : 0 < S5000x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x40_S128x40_0_0 : ∀ a, (![0, 0] : Fin 2 → Nat) a + S128x40.size a ≤ S128x40.size a
  h_S128x40 : 0 < S128x40.numel
  inb_S5000x40_S5000x40_0_0 : ∀ a, (![0, 0] : Fin 2 → Nat) a + S5000x40.size a ≤ S5000x40.size a
  h_S5000x40 : 0 < S5000x40.numel
  bcast_S850000x1_S850000x40_0_1 : S850000x1.BroadcastsInDim S850000x40 (![0, 1] : Fin 2 → Fin S850000x40.rank)
  bcast_S_S50000x40 : S_.BroadcastsInDim S50000x40 (![] : Fin 0 → Fin S50000x40.rank)
  shapeCasts_S40_S1x40 : S40.ShapeCasts S1x40
  shapeCasts_S5000x40_S5000x40 : S5000x40.ShapeCasts S5000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  reduces_S5000x40_S5000 : S5000x40.Reduces [1] S5000
  shapeCasts_S5000_S5000x1 : S5000.ShapeCasts S5000x1
  broadcasts_S5000x1_S5000x40 : S5000x1.Broadcasts S5000x40
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x512_S512x128_S5000x128_1_0_0_1_n_n_wf : DotDims.WF S5000x512 S512x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x40_S5000x40_1_0_0_1_n_n_wf : DotDims.WF S5000x128 S128x40 S5000x40 [1] [0] [0] [1] [] []
  gather_S50000x40_S850000x1_S850000x40_1_0_n_n_0_1_140_wf : GatherDims.WF S50000x40 S850000x1 S850000x40 [1] [0] [] [0] [] 1 ![1, 40]
  scatter_S50000x40_S850000x1_S850000x40_1_0_0_1_wf : ScatterDims.WF S50000x40 S850000x1 S850000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S50000x512.size a
  hwx0_0 : ∀ i : grid0.Coords, EltTy.bits .f32 = 32 ∨ (Rect.block (s := S50000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x40.size a ≤ S128x40.size a
  hwx1_2 : ∀ i : grid1.Coords, EltTy.bits .f32 = 32 ∨ (Rect.block (s := S128x40) S128x40.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x40.size a ≤ S50000x40.size a
  hwx1_3 : ∀ i : grid1.Coords, EltTy.bits .f32 = 32 ∨ (Rect.block (s := S50000x40) S5000x40.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x40.size a ≤ S50000x40.size a
  hwx2_0 : ∀ i : grid2.Coords, EltTy.bits .f32 = 32 ∨ (Rect.block (s := S50000x40) S5000x40.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x40.size a ≤ S1x40.size a
  hwx2_1 : ∀ i : grid2.Coords, EltTy.bits .f32 = 32 ∨ (Rect.block (s := S1x40) S1x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x40.size a ≤ S50000x40.size a
  hwx2_2 : ∀ i : grid2.Coords, EltTy.bits .f32 = 32 ∨ (Rect.block (s := S50000x40) S5000x40.size (cc2_transform_2 i) (hinb2_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x512_S512x128_S5000x128_1_0_0_1_n_n : DotDims S5000x512 S512x128 S5000x128 where
  lhsContracting := [1]
  rhsContracting := [0]
  lhsNonContracting := [0]
  rhsNonContracting := [1]
  lhsBatch := []
  rhsBatch := []
  wf := dot_S5000x512_S512x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf
def gather_S50000x40_S850000x1_S850000x40_1_0_n_n_0_1_140 : GatherDims S50000x40 S850000x1 S850000x40 where
  offsetDims := [1]
  collapsedSliceDims := [0]
  operandBatchingDims := []
  startIndicesBatchingDims := []
  startIndexMap := [0]
  indexVectorDim := 1
  sliceSizes := ![1, 40]
  wf := gather_S50000x40_S850000x1_S850000x40_1_0_n_n_0_1_140_wf
def scatter_S50000x40_S850000x1_S850000x40_1_0_0_1 : ScatterDims S50000x40 S850000x1 S850000x40 where
  updateWindowDims := [1]
  insertedWindowDims := [0]
  scatterDimsToOperandDims := [0]
  indexVectorDim := 1
  wf := scatter_S50000x40_S850000x1_S850000x40_1_0_0_1_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v79) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x40.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v80) S5000x40.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v93) S5000x40.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v94) S1x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v95) S5000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000x512 : Shape := ⟨2, ![50000, 512]⟩
abbrev S2x800000 : Shape := ⟨2, ![2, 800000]⟩
abbrev S800000 : Shape := ⟨1, ![800000]⟩
abbrev S512x128 : Shape := ⟨2, ![512, 128]⟩
abbrev S128 : Shape := ⟨1, ![128]⟩
abbrev S128x40 : Shape := ⟨2, ![128, 40]⟩
abbrev S40 : Shape := ⟨1, ![40]⟩
abbrev S_ : Shape := ⟨0, ![]⟩
abbrev S50000 : Shape := ⟨1, ![50000]⟩
abbrev S1x800000 : Shape := ⟨2, ![1, 800000]⟩
abbrev S850000 : Shape := ⟨1, ![850000]⟩
abbrev S850000x1 : Shape := ⟨2, ![850000, 1]⟩
abbrev S50000x128 : Shape := ⟨2, ![50000, 128]⟩
abbrev S850000x128 : Shape := ⟨2, ![850000, 128]⟩
abbrev S1x128 : Shape := ⟨2, ![1, 128]⟩
abbrev S50000x40 : Shape := ⟨2, ![50000, 40]⟩
abbrev S850000x40 : Shape := ⟨2, ![850000, 40]⟩
abbrev S1x40 : Shape := ⟨2, ![1, 40]⟩
abbrev S50000x1 : Shape := ⟨2, ![50000, 1]⟩

abbrev nBuf : Space → Nat
  | .hbm => 151
  | .vmem => 0
  | .smem => 0
  | _ => 0

abbrev hbmTy0_0 (i : Nat) : BufTy := match i % 128 with
  | 0 => ⟨S50000x512, .f32⟩
  | 1 => ⟨S2x800000, .i32⟩
  | 2 => ⟨S800000, .f32⟩
  | 3 => ⟨S512x128, .f32⟩
  | 4 => ⟨S128, .f32⟩
  | 5 => ⟨S128x40, .f32⟩
  | 6 => ⟨S40, .f32⟩
  | 7 => ⟨S_, .f32⟩
  | 8 => ⟨S800000, .f32⟩
  | 9 => ⟨S50000, .i32⟩
  | 10 => ⟨S1x800000, .i32⟩
  | 11 => ⟨S800000, .i32⟩
  | 12 => ⟨S850000, .i32⟩
  | 13 => ⟨S1x800000, .i32⟩
  | 14 => ⟨S800000, .i32⟩
  | 15 => ⟨S850000, .i32⟩
  | 16 => ⟨S_, .f32⟩
  | 17 => ⟨S50000, .f32⟩
  | 18 => ⟨S850000, .f32⟩
  | 19 => ⟨S_, .f32⟩
  | 20 => ⟨S50000, .f32⟩
  | 21 => ⟨S850000x1, .i32⟩
  | 22 => ⟨S50000, .f32⟩
  | 23 => ⟨S_, .f32⟩
  | 24 => ⟨S50000, .f32⟩
  | 25 => ⟨S50000, .i1⟩
  | 26 => ⟨S50000, .f32⟩
  | 27 => ⟨S_, .f32⟩
  | 28 => ⟨S_, .f32⟩
  | 29 => ⟨S50000, .f32⟩
  | 30 => ⟨S50000, .f32⟩
  | 31 => ⟨S_, .i32⟩
  | 32 => ⟨S850000, .i32⟩
  | 33 => ⟨S850000, .i1⟩
  | 34 => ⟨S_, .i32⟩
  | 35 => ⟨S850000, .i32⟩
  | 36 => ⟨S850000, .i32⟩
  | 37 => ⟨S850000, .i32⟩
  | 38 => ⟨S850000x1, .i32⟩
  | 39 => ⟨S850000, .f32⟩
  | 40 => ⟨S850000, .f32⟩
  | 41 => ⟨S_, .i32⟩
  | 42 => ⟨S850000, .i32⟩
  | 43 => ⟨S850000, .i1⟩
  | 44 => ⟨S_, .i32⟩
  | 45 => ⟨S850000, .i32⟩
  | 46 => ⟨S850000, .i32⟩
  | 47 => ⟨S850000, .i32⟩
  | 48 => ⟨S850000x1, .i32⟩
  | 49 => ⟨S850000, .f32⟩
  | 50 => ⟨S850000, .f32⟩
  | 51 => ⟨S50000x128, .f32⟩
  | 52 => ⟨S_, .i32⟩
  | 53 => ⟨S850000, .i32⟩
  | 54 => ⟨S850000, .i1⟩
  | 55 => ⟨S_, .i32⟩
  | 56 => ⟨S850000, .i32⟩
  | 57 => ⟨S850000, .i32⟩
  | 58 => ⟨S850000, .i32⟩
  | 59 => ⟨S850000x1, .i32⟩
  | 60 => ⟨S850000x128, .f32⟩
  | 61 => ⟨S850000x1, .f32⟩
  | 62 => ⟨S850000x128, .f32⟩
  | 63 => ⟨S850000x128, .f32⟩
  | 64 => ⟨S_, .f32⟩
  | 65 => ⟨S50000x128, .f32⟩
  | 66 => ⟨S850000x1, .i32⟩
  | 67 => ⟨S50000x128, .f32⟩
  | 68 => ⟨S1x128, .f32⟩
  | 69 => ⟨S50000x128, .f32⟩
  | 70 => ⟨S50000x128, .f32⟩
  | 71 => ⟨S_, .f32⟩
  | 72 => ⟨S50000x128, .f32⟩
  | 73 => ⟨S50000x128, .f32⟩
  | 74 => ⟨S50000, .i32⟩
  | 75 => ⟨S1x800000, .i32⟩
  | 76 => ⟨S800000, .i32⟩
  | 77 => ⟨S850000, .i32⟩
  | 78 => ⟨S1x800000, .i32⟩
  | 79 => ⟨S800000, .i32⟩
  | 80 => ⟨S850000, .i32⟩
  | 81 => ⟨S_, .f32⟩
  | 82 => ⟨S50000, .f32⟩
  | 83 => ⟨S850000, .f32⟩
  | 84 => ⟨S_, .f32⟩
  | 85 => ⟨S50000, .f32⟩
  | 86 => ⟨S850000x1, .i32⟩
  | 87 => ⟨S50000, .f32⟩
  | 88 => ⟨S_, .f32⟩
  | 89 => ⟨S50000, .f32⟩
  | 90 => ⟨S50000, .i1⟩
  | 91 => ⟨S50000, .f32⟩
  | 92 => ⟨S_, .f32⟩
  | 93 => ⟨S_, .f32⟩
  | 94 => ⟨S50000, .f32⟩
  | 95 => ⟨S50000, .f32⟩
  | 96 => ⟨S_, .i32⟩
  | 97 => ⟨S850000, .i32⟩
  | 98 => ⟨S850000, .i1⟩
  | 99 => ⟨S_, .i32⟩
  | 100 => ⟨S850000, .i32⟩
  | 101 => ⟨S850000, .i32⟩
  | 102 => ⟨S850000, .i32⟩
  | 103 => ⟨S850000x1, .i32⟩
  | 104 => ⟨S850000, .f32⟩
  | 105 => ⟨S850000, .f32⟩
  | 106 => ⟨S_, .i32⟩
  | 107 => ⟨S850000, .i32⟩
  | 108 => ⟨S850000, .i1⟩
  | 109 => ⟨S_, .i32⟩
  | 110 => ⟨S850000, .i32⟩
  | 111 => ⟨S850000, .i32⟩
  | 112 => ⟨S850000, .i32⟩
  | 113 => ⟨S850000x1, .i32⟩
  | 114 => ⟨S850000, .f32⟩
  | 115 => ⟨S850000, .f32⟩
  | 116 => ⟨S50000x40, .f32⟩
  | 117 => ⟨S_, .i32⟩
  | 118 => ⟨S850000, .i32⟩
  | 119 => ⟨S850000, .i1⟩
  | 120 => ⟨S_, .i32⟩
  | 121 => ⟨S850000, .i32⟩
  | 122 => ⟨S850000, .i32⟩
  | 123 => ⟨S850000, .i32⟩
  | 124 => ⟨S850000x1, .i32⟩
  | 125 => ⟨S850000x40, .f32⟩
  | 126 => ⟨S850000x1, .f32⟩
  | 127 => ⟨S850000x40, .f32⟩
  | _ => ⟨S50000x512, .f32⟩

abbrev hbmTy0_1 (i : Nat) : BufTy := match i % 128 with
  | 0 => ⟨S850000x40, .f32⟩
  | 1 => ⟨S_, .f32⟩
  | 2 => ⟨S50000x40, .f32⟩
  | 3 => ⟨S850000x1, .i32⟩
  | 4 => ⟨S50000x40, .f32⟩
  | 5 => ⟨S1x40, .f32⟩
  | 6 => ⟨S50000x40, .f32⟩
  | 7 => ⟨S50000x40, .f32⟩
  | 8 => ⟨S_, .f32⟩
  | 9 => ⟨S50000, .f32⟩
  | 10 => ⟨S_, .f32⟩
  | 11 => ⟨S50000, .f32⟩
  | 12 => ⟨S50000, .f32⟩
  | 13 => ⟨S50000x1, .f32⟩
  | 14 => ⟨S50000x40, .f32⟩
  | 15 => ⟨S50000x40, .f32⟩
  | 16 => ⟨S50000x40, .f32⟩
  | 17 => ⟨S_, .f32⟩
  | 18 => ⟨S50000, .f32⟩
  | 19 => ⟨S50000x1, .f32⟩
  | 20 => ⟨S50000x1, .f32⟩
  | 21 => ⟨S50000x40, .f32⟩
  | 22 => ⟨S50000x40, .f32⟩
  | _ => ⟨S50000x512, .f32⟩

abbrev hbmTy (i : Nat) : BufTy := match i / 128 with
  | 0 => hbmTy0_0 i
  | 1 => hbmTy0_1 i
  | _ => ⟨S50000x512, .f32⟩

abbrev bufTy : (tb : Table) → Fin (tcTables nBuf tb) → BufTy
  | .hbm, ⟨i, _⟩ => hbmTy i
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_c_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_5 : Ref sig .tc := ⟨.hbm, 41, rfl⟩
abbrev main_v25 : Ref sig .tc := ⟨.hbm, 42, rfl⟩
abbrev main_v26 : Ref sig .tc := ⟨.hbm, 43, rfl⟩
abbrev main_c_6 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_c_7 : Ref sig .tc := ⟨.hbm, 52, rfl⟩
abbrev main_v34 : Ref sig .tc := ⟨.hbm, 53, rfl⟩
abbrev main_v35 : Ref sig .tc := ⟨.hbm, 54, rfl⟩
abbrev main_c_8 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_9 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_call1_cst : Ref sig .tc := ⟨.hbm, 71, rfl⟩
abbrev main_call1_v0 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_10 : Ref sig .tc := ⟨.hbm, 81, rfl⟩
abbrev main_v58 : Ref sig .tc := ⟨.hbm, 82, rfl⟩
abbrev main_v59 : Ref sig .tc := ⟨.hbm, 83, rfl⟩
abbrev main_cst_11 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_12 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_13 : Ref sig .tc := ⟨.hbm, 92, rfl⟩
abbrev main_call2_v0 : Ref sig .tc := ⟨.hbm, 93, rfl⟩
abbrev main_call2_v1 : Ref sig .tc := ⟨.hbm, 94, rfl⟩
abbrev main_v66 : Ref sig .tc := ⟨.hbm, 95, rfl⟩
abbrev main_c_14 : Ref sig .tc := ⟨.hbm, 96, rfl⟩
abbrev main_v67 : Ref sig .tc := ⟨.hbm, 97, rfl⟩
abbrev main_v68 : Ref sig .tc := ⟨.hbm, 98, rfl⟩
abbrev main_c_15 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_16 : Ref sig .tc := ⟨.hbm, 106, rfl⟩
abbrev main_v75 : Ref sig .tc := ⟨.hbm, 107, rfl⟩
abbrev main_v76 : Ref sig .tc := ⟨.hbm, 108, rfl⟩
abbrev main_c_17 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_c_18 : Ref sig .tc := ⟨.hbm, 117, rfl⟩
abbrev main_v84 : Ref sig .tc := ⟨.hbm, 118, rfl⟩
abbrev main_v85 : Ref sig .tc := ⟨.hbm, 119, rfl⟩
abbrev main_c_19 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_cst_20 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_call3_cst : Ref sig .tc := ⟨.hbm, 136, rfl⟩
abbrev main_call3_v0 : Ref sig .tc := ⟨.hbm, 137, rfl⟩
abbrev main_call3_cst_0 : Ref sig .tc := ⟨.hbm, 138, rfl⟩
abbrev main_call3_v1 : Ref sig .tc := ⟨.hbm, 139, rfl⟩
abbrev main_call3_v2 : Ref sig .tc := ⟨.hbm, 140, rfl⟩
abbrev main_call3_v3 : Ref sig .tc := ⟨.hbm, 141, rfl⟩
abbrev main_call3_v4 : Ref sig .tc := ⟨.hbm, 142, rfl⟩
abbrev main_call3_v5 : Ref sig .tc := ⟨.hbm, 143, rfl⟩
abbrev main_call3_v6 : Ref sig .tc := ⟨.hbm, 144, rfl⟩
abbrev main_call3_cst_1 : Ref sig .tc := ⟨.hbm, 145, rfl⟩
abbrev main_call3_v7 : Ref sig .tc := ⟨.hbm, 146, rfl⟩
abbrev main_call3_v8 : Ref sig .tc := ⟨.hbm, 147, rfl⟩
abbrev main_call3_v9 : Ref sig .tc := ⟨.hbm, 148, rfl⟩
abbrev main_call3_v10 : Ref sig .tc := ⟨.hbm, 149, rfl⟩
abbrev main_v100 : Ref sig .tc := ⟨.hbm, 150, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x40_0_1 : S850000x1.BroadcastsInDim S850000x40 (![0, 1] : Fin 2 → Fin S850000x40.rank)
  bcast_S_S50000x40 : S_.BroadcastsInDim S50000x40 (![] : Fin 0 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  reducesTo_S50000x40_S50000_d1 : S50000x40.ReducesTo [1] S50000
  h_S_ : 0 < S_.numel
  bcast_S50000_S50000x1_0 : S50000.BroadcastsInDim S50000x1 (![0] : Fin 1 → Fin S50000x1.rank)
  bcast_S50000x1_S50000x40_0_1 : S50000x1.BroadcastsInDim S50000x40 (![0, 1] : Fin 2 → Fin S50000x40.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x512_S512x128_S50000x128_1_0_0_1_n_n_wf : DotDims.WF S50000x512 S512x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x40_S50000x40_1_0_0_1_n_n_wf : DotDims.WF S50000x128 S128x40 S50000x40 [1] [0] [0] [1] [] []
  gather_S50000x40_S850000x1_S850000x40_1_0_n_n_0_1_140_wf : GatherDims.WF S50000x40 S850000x1 S850000x40 [1] [0] [] [0] [] 1 ![1, 40]
  scatter_S50000x40_S850000x1_S850000x40_1_0_0_1_wf : ScatterDims.WF S50000x40 S850000x1 S850000x40 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x512_S512x128_S50000x128_1_0_0_1_n_n : DotDims S50000x512 S512x128 S50000x128 where
  lhsContracting := [1]
  rhsContracting := [0]
  lhsNonContracting := [0]
  rhsNonContracting := [1]
  lhsBatch := []
  rhsBatch := []
  wf := dot_S50000x512_S512x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf
def gather_S50000x40_S850000x1_S850000x40_1_0_n_n_0_1_140 : GatherDims S50000x40 S850000x1 S850000x40 where
  offsetDims := [1]
  collapsedSliceDims := [0]
  operandBatchingDims := []
  startIndicesBatchingDims := []
  startIndexMap := [0]
  indexVectorDim := 1
  sliceSizes := ![1, 40]
  wf := gather_S50000x40_S850000x1_S850000x40_1_0_n_n_0_1_140_wf
def scatter_S50000x40_S850000x1_S850000x40_1_0_0_1 : ScatterDims S50000x40 S850000x1 S850000x40 where
  updateWindowDims := [1]
  insertedWindowDims := [0]
  scatterDimsToOperandDims := [0]
  indexVectorDim := 1
  wf := scatter_S50000x40_S850000x1_S850000x40_1_0_0_1_wf

class Facts : Prop extends Facts₀ where

variable [Facts]
-- ==== Proof.KernelRun.lean ====
/-
  The idealized kernel's run with its result named.

  The program alternates stretches of host operations with three pipelined regions.  Folding the segments over the
  launch contents gives the buffer contents at every boundary: a host stretch applies its operations, a region
  rewrites its arrays with what its write-backs leave.  The launch theorem for such a chain of segments asks for the
  program as the run of its segments, for the first thread state out of the launch resources, for each segment's
  exit state to be the next one's entry state, and for a reading of the last thread state against the final memory.
  The last thread state holds every unscoped buffer at the last boundary's contents, so the final memory agrees
  with the fold on all of them.  Read at the argument arrays this is the frame; read at the result array it says
  what the program returns: the last region's output array as the fold leaves it.
-/
import proofs.«157734_j29592324669624_2_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault, and every unscoped buffer ends at what the fold of the
    program's segments leaves in it. -/
theorem run_held : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit (pcfgs (F := F)) adm (pdats m ρ) () cellOf_inj emb₁ defs₀ 𝒱₀ L lv m ρ main (segs m ρ)
    -- the program is the run of its ten segments
    (fun c Q => by rw [main_run m ρ c])
    -- the three regions are three different pipelines
    (by simp only [segs, Pipeline.Seg.pipes_host, Pipeline.Seg.pipes_region, Pipeline.Seg.pipes_nil]; decide)
    -- nothing is owed between cores, no level is assigned, nothing rides beside the cores' holdings
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    -- the first thread state: every unscoped buffer at the launch contents; the last: at the last boundary's
    (T₀ := fun c => iprop(StableHlo.held (c : Thread nD τ) (Pipeline.ucRefs τ sig) (W0 m ρ c) ∗ R c)) (Tₙ := Tₙ m ρ)
    -- each segment is entered from what the one before leaves: the boundaries' contents are the fold's by definition
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    -- the last thread state read against the final memory
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h => h)

/-- The result array ends at what the fold leaves there, and the argument arrays end as launched. -/
theorem run_fold : θ_run defs (onTc (τ := τ) (main (F := F))) ⟨m, fun _ => 0, ρ⟩ (fun r => ∀ c : Dev nD,
      r.2.mem ((c.tc : Thread nD τ).loc main_v95) = W10 m ρ c (Proc.devRef .tc main_v95)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
      ⟨h c _ (mem_uc main_v95 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c)⟩)
    (run_held m ρ)

end Cert.KernelIdeal.Hand

end
-- ==== Proof.LibRowOps.lean ====
/-
  Two-dimensional vector operations read at one index, on the extended reals.

  A kernel body that projects, normalises and contracts rows is a composition of a few operations on
  [a, b] vectors.  Each lemma below reads one of them at the index (r, c), with both coordinates explicit:
  a matrix product into a zero accumulator is the sum over the shared axis; a sum or a maximum along the
  second axis is the sum or the fold of `max` over that row; a length-a vector viewed as an [a, 1] column, the
  column repeated along a second axis, and a transpose only move coordinates.
-/
import Idealize.ShloMosaic.PureOps.Ideal.Laws
import Idealize.ShloMosaic.Lib.ValueIdx
import Idealize.ShloMosaic.Lib.Pipeline.Value

noncomputable section

namespace Cert.RowOps

open Idealize.ShloMosaic Idealize.ShloMosaic.ValueIdx

/-! ## A plain matrix product -/

/-- The dimension numbers of a plain `[M, K] × [K, N]` product: contract the left operand's second axis with the
    right operand's first, no batch axis. -/
structure IsPlain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Plain

variable {M K N : Nat} {d : DotDims ⟨2, ![M, K]⟩ ⟨2, ![K, N]⟩ ⟨2, ![M, N]⟩}

private theorem val_congr {n : Nat} {s : Fin n → Nat} (j : (i : Fin n) → Fin (s i)) :
    ∀ (p q : Nat) (hp : p < n) (hq : q < n), p = q → (j ⟨p, hp⟩).val = (j ⟨q, hq⟩).val :=
  fun p q hp hq h => by subst h; rfl

theorem contr_rank (hd : IsPlain d) : d.contr.rank = 1 := by
  rw [d.rank_contr, hd.lc]; rfl

theorem contr_size (hd : IsPlain d) : d.contr.size ⟨0, by rw [contr_rank hd]; exact Nat.one_pos⟩ = K := by
  rw [d.size_contr 0 (by rw [hd.lc]; exact Nat.one_pos)]
  simp only [hd.lc, List.getElem_cons_zero]
  rfl

/-- The left operand's row coordinate is the result's row coordinate. -/
theorem lhsIdx_row (hd : IsPlain d) (j : (⟨2, ![M, N]⟩ : Shape).Idx) (k : d.contr.Idx) :
    (d.lhsIdx j k 0).val = (j 0).val := by
  unfold DotDims.lhsIdx
  rw [dif_neg (by rw [hd.lb]; exact List.not_mem_nil), dif_pos (by rw [hd.ln]; exact List.mem_singleton.mpr rfl)]
  simp only [Fin.val_cast]
  exact val_congr j _ _ _ _ (by simp [hd.lb, hd.ln])

/-- The right operand's column coordinate is the result's column coordinate. -/
theorem rhsIdx_col (hd : IsPlain d) (j : (⟨2, ![M, N]⟩ : Shape).Idx) (k : d.contr.Idx) :
    (d.rhsIdx j k 1).val = (j 1).val := by
  unfold DotDims.rhsIdx
  rw [dif_neg (by rw [hd.rb]; exact List.not_mem_nil), dif_pos (by rw [hd.rn]; exact List.mem_singleton.mpr rfl)]
  simp only [Fin.val_cast]
  exact val_congr j _ _ _ _ (by simp [hd.lb, hd.ln, hd.rn])

/-- A plain matrix product into a zero accumulator, at (r, c): the sum over the shared axis of the products. -/
theorem matmul_zero_apply (hd : IsPlain d) {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul d prec lhs rhs (constant ⟨2, ![M, N]⟩ .f32 0x00000000#32) (ix2 r c)
      = ∑ k : Fin K, lhs (ix2 r k) * rhs (ix2 k c) := by
  rw [Ideal.matmul_constant_zero_apply,
    ← Equiv.sum_comp (contrEquiv1 d K (contr_rank hd) (contr_size hd)).symm]
  refine Finset.sum_congr rfl fun k _ => ?_
  have hk := contrEquiv1_symm_val d K (contr_rank hd) (contr_size hd) k
  have el : d.lhsIdx (ix2 r c) ((contrEquiv1 d K (contr_rank hd) (contr_size hd)).symm k) = ix2 r k :=
    funext fun a => Fin.ext (by
      match a with
      | ⟨0, _⟩ => exact lhsIdx_row hd _ _
      | ⟨1, _⟩ => exact (d.lhsIdx_val_of_single hd.lc _ _).trans hk)
  have er : d.rhsIdx (ix2 r c) ((contrEquiv1 d K (contr_rank hd) (contr_size hd)).symm k) = ix2 k c :=
    funext fun a => Fin.ext (by
      match a with
      | ⟨0, _⟩ => exact (d.rhsIdx_val_of_single hd.rc _ _).trans hk
      | ⟨1, _⟩ => exact rhsIdx_col hd _ _)
  rw [el, er]

end Plain

/-! ## Reductions along the second axis -/

section Rows

variable {a b : Nat} {φ : FTy}

/-- The index over row `r` with second coordinate `k`. -/
theorem lift_row (h : (⟨2, ![a, b]⟩ : Shape).Reduces [1] ⟨1, ![a]⟩) (r : Fin a) (k : Fin b) :
    h.lift (ix1 r) k = ix2 r k :=
  funext fun c => Fin.ext (by
    show h.liftVal (ix1 r) k.val c = (ix2 r k c).val
    unfold Shape.Reduces.liftVal
    match c with
    | ⟨0, _⟩ => rfl
    | ⟨1, _⟩ => rfl)

/-- A sum along the second axis, at row `r`: the sum of that row. -/
theorem rowSum_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) := by
  rw [Ideal.multiReduction_add_single]
  exact Finset.sum_congr rfl fun k _ => congrArg src (lift_row h r k)

/-- A maximum along the second axis, at row `r`: the fold of `max` over that row from the starting word's value. -/
theorem rowMax_apply (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) := by
  rw [Ideal.multiReduction_maximumf_single]
  exact congrArg (Finset.fold max _ · _) (funext fun k => congrArg src (lift_row h r k))

end Rows

/-! ## Moving coordinates -/

section Layout

variable {α : Type} {a b : Nat}

/-- A length-`a` vector viewed as an `[a, 1]` column reads, at (i, u), the vector at i. -/
theorem column_apply (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An `[a, 1]` column repeated along a second axis reads, at (i, j), the column at (i, 0). -/
theorem spread_apply (x : (⟨2, ![a, 1]⟩ : Shape).Idx → α) (h : (⟨2, ![a, 1]⟩ : Shape).Broadcasts ⟨2, ![a, b]⟩)
    (i : Fin a) (j : Fin b) : broadcastTo ⟨2, ![a, b]⟩ x h (ix2 i j) = x (ix2 i (0 : Fin 1)) :=
  broadcastTo_apply x h _ _ (fun c => by
    match c with
    | ⟨0, _⟩ =>
      show i.val = if a = 1 then 0 else i.val
      split
      · next h1 => have := i.isLt; omega
      · rfl
    | ⟨1, _⟩ => show 0 = if (1 : Nat) = 1 then 0 else j.val; rw [if_pos rfl])

/-- A transposed `[a, b]` vector reads, at (p, q), the vector at (q, p). -/
theorem swap_apply (x : (⟨2, ![a, b]⟩ : Shape).Idx → α) (h : (⟨2, ![a, b]⟩ : Shape).Transposes [1, 0] ⟨2, ![b, a]⟩)
    (p : Fin b) (q : Fin a) : transpose ⟨2, ![b, a]⟩ [1, 0] x h (ix2 p q) = x (ix2 q p) :=
  transpose_apply [1, 0] x h _ _ (fun c => by
    match c with
    | ⟨0, _⟩ => rfl
    | ⟨1, _⟩ => rfl)

end Layout

end Cert.RowOps

end
-- ==== Proof.LibDense.lean ====
/-
  A dense layer read at one index, on the extended reals.

  A dense layer of a network multiplies an [M, K] array of rows by a [K, N] weight, adds a length-N bias to
  every row, and clips at zero.  Written over whole arrays (the host's `dot_general`, `broadcast_in_dim`,
  `maximum`) or over one block of rows (a `matmul` into a zero accumulator, a bias viewed as one row and
  repeated, a maximum with a splat zero), the entry at row r and column c is the same expression of row r of
  the input, column c of the weight and entry c of the bias.  Each lemma below reads one such spelling at
  (r, c).  The zero the maximum is taken with is kept as the value of the all-zero word.
-/
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value
import proofs.«157734_j29592324669624_2_alg».proof.Proof.LibRowOps

noncomputable section

namespace Cert.Dense

open Idealize.ShloMosaic Idealize.ShloMosaic.ValueIdx Cert.RowOps

/-- The value of the all-zero f32 word. -/
abbrev z : EReal := Ideal.ofBits .f32 0x00000000#32

/-! ## The host's matrix product -/

section Product

variable {M K N : Nat} {d : DotDims ⟨2, ![M, K]⟩ ⟨2, ![K, N]⟩ ⟨2, ![M, N]⟩}

/-- The host's plain matrix product at (r, c): the sum over the shared axis of the products. -/
theorem hostDot_apply (hd : IsPlain d) {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral d prec sched lhs rhs (ix2 r c) = ∑ k : Fin K, lhs (ix2 r k) * rhs (ix2 k c) := by
  rw [Ideal.dotGeneral_apply,
    ← Equiv.sum_comp (contrEquiv1 d K (contr_rank hd) (contr_size hd)).symm]
  refine Finset.sum_congr rfl fun k _ => ?_
  have hk := contrEquiv1_symm_val d K (contr_rank hd) (contr_size hd) k
  have el : d.lhsIdx (ix2 r c) ((contrEquiv1 d K (contr_rank hd) (contr_size hd)).symm k) = ix2 r k :=
    funext fun a => Fin.ext (by
      match a with
      | ⟨0, _⟩ => exact lhsIdx_row hd _ _
      | ⟨1, _⟩ => exact (d.lhsIdx_val_of_single hd.lc _ _).trans hk)
  have er : d.rhsIdx (ix2 r c) ((contrEquiv1 d K (contr_rank hd) (contr_size hd)).symm k) = ix2 k c :=
    funext fun a => Fin.ext (by
      match a with
      | ⟨0, _⟩ => exact (d.rhsIdx_val_of_single hd.rc _ _).trans hk
      | ⟨1, _⟩ => exact rhsIdx_col hd _ _)
  rw [el, er]

end Product

/-! ## A bias added to every row -/

section Bias

variable {α : Type} {a b : Nat}

/-- A length-b vector viewed as one [1, b] row and repeated over a rows reads, at (p, c), the vector at c. -/
theorem rowBias_apply (v : (⟨1, ![b]⟩ : Shape).Idx → α) (hs : (⟨1, ![b]⟩ : Shape).ShapeCasts ⟨2, ![1, b]⟩)
    (hb : (⟨2, ![1, b]⟩ : Shape).Broadcasts ⟨2, ![a, b]⟩) (p : Fin a) (c : Fin b) :
    broadcastTo ⟨2, ![a, b]⟩ (shapeCast ⟨2, ![1, b]⟩ v hs) hb (ix2 p c) = v (ix1 c) := by
  rw [broadcastTo_1b_ab_apply]
  exact shapeCast_apply v hs _ _ (by
    rw [Shape.rowMajor_val_one, Shape.rowMajor_val_two]
    show c.val = 0 * b + c.val
    omega)

/-- The host's spelling: the vector broadcast to [1, b] along the second axis, then to [a, b]; at (p, c) the vector at c. -/
theorem hostRowBias_apply (v : (⟨1, ![b]⟩ : Shape).Idx → α)
    (h1 : (⟨1, ![b]⟩ : Shape).BroadcastsInDim ⟨2, ![1, b]⟩ ![1])
    (h2 : (⟨2, ![1, b]⟩ : Shape).BroadcastsInDim ⟨2, ![a, b]⟩ ![0, 1]) (p : Fin a) (c : Fin b) :
    broadcastInDim ⟨2, ![a, b]⟩ ![0, 1] h2 (broadcastInDim ⟨2, ![1, b]⟩ ![1] h1 v) (ix2 p c) = v (ix1 c) := by
  rw [broadcastInDim_apply ![0, 1] h2 _ (ix2 p c) (ix2 (0 : Fin 1) c) (fun ax => by
    match ax with
    | ⟨0, _⟩ => show (0 : Nat) = if (1 : Nat) = 1 then 0 else p.val; rw [if_pos rfl]
    | ⟨1, _⟩ =>
      show c.val = if b = 1 then 0 else c.val
      split
      · have := c.isLt; omega
      · rfl)]
  exact broadcastInDim_apply ![1] h1 v (ix2 (0 : Fin 1) c) (ix1 c) (fun ax => by
    match ax with
    | ⟨0, _⟩ =>
      show c.val = if b = 1 then 0 else c.val
      split
      · have := c.isLt; omega
      · rfl)

end Bias

/-! ## The four shapes of a layer, over whole arrays (the host's spelling) -/

section Host

variable {M K N : Nat} {d : DotDims ⟨2, ![M, K]⟩ ⟨2, ![K, N]⟩ ⟨2, ![M, N]⟩}

/-- Rows times weight plus bias, clipped at zero. -/
theorem hostEncode_apply (hd : IsPlain d) (X : FVec Ideal ⟨2, ![M, K]⟩ .f32) (W : FVec Ideal ⟨2, ![K, N]⟩ .f32)
    (B : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) (r : Fin M) (c : Fin N) :
    maximumf (addf (Host.dotGeneral d none X W) (broadcastInDim ⟨2, ![M, N]⟩ ![0, 1] h2 (broadcastInDim ⟨2, ![1, N]⟩ ![1] h1 B)))
        (broadcastInDim ⟨2, ![M, N]⟩ ![] h0 (constant (F := Ideal) ⟨0, ![]⟩ .f32 0x00000000#32)) (ix2 r c)
      = max ((∑ k : Fin K, X (ix2 r k) * W (ix2 k c)) + B (ix1 c)) z := by
  rw [maximumf_apply, addf_apply, hostRowBias_apply, broadcastInDim_scalar_apply, constant_apply]
  exact congrArg (fun s => max (s + B (ix1 c)) z) (hostDot_apply hd none .single X W r c)

/-- Input plus bias clipped at zero, at one index. -/
theorem hostActivate_apply (X : FVec Ideal ⟨2, ![M, K]⟩ .f32) (B : FVec Ideal ⟨1, ![K]⟩ .f32)
    (h1 : (⟨1, ![K]⟩ : Shape).BroadcastsInDim ⟨2, ![1, K]⟩ ![1])
    (h2 : (⟨2, ![1, K]⟩ : Shape).BroadcastsInDim ⟨2, ![M, K]⟩ ![0, 1])
    (h0 : (⟨0, ![]⟩ : Shape).BroadcastsInDim ⟨2, ![M, K]⟩ ![]) (r : Fin M) (k : Fin K) :
    maximumf (addf X (broadcastInDim ⟨2, ![M, K]⟩ ![0, 1] h2 (broadcastInDim ⟨2, ![1, K]⟩ ![1] h1 B)))
        (broadcastInDim ⟨2, ![M, K]⟩ ![] h0 (constant (F := Ideal) ⟨0, ![]⟩ .f32 0x00000000#32)) (ix2 r k)
      = max (X (ix2 r k) + B (ix1 k)) z := by
  rw [maximumf_apply, addf_apply, hostRowBias_apply, broadcastInDim_scalar_apply, constant_apply]

/-- Input plus bias clipped at zero, times weight. -/
theorem hostLayer_apply (hd : IsPlain d) (X : FVec Ideal ⟨2, ![M, K]⟩ .f32) (B : FVec Ideal ⟨1, ![K]⟩ .f32)
    (W : FVec Ideal ⟨2, ![K, N]⟩ .f32)
    (h1 : (⟨1, ![K]⟩ : Shape).BroadcastsInDim ⟨2, ![1, K]⟩ ![1])
    (h2 : (⟨2, ![1, K]⟩ : Shape).BroadcastsInDim ⟨2, ![M, K]⟩ ![0, 1])
    (h0 : (⟨0, ![]⟩ : Shape).BroadcastsInDim ⟨2, ![M, K]⟩ ![]) (r : Fin M) (c : Fin N) :
    Host.dotGeneral d none (maximumf (addf X (broadcastInDim ⟨2, ![M, K]⟩ ![0, 1] h2 (broadcastInDim ⟨2, ![1, K]⟩ ![1] h1 B)))
        (broadcastInDim ⟨2, ![M, K]⟩ ![] h0 (constant (F := Ideal) ⟨0, ![]⟩ .f32 0x00000000#32))) W (ix2 r c)
      = ∑ k : Fin K, max (X (ix2 r k) + B (ix1 k)) z * W (ix2 k c) := by
  refine (hostDot_apply hd none .single _ W r c).trans (Finset.sum_congr rfl fun k _ => ?_)
  rw [hostActivate_apply]

/-- Input plus bias clipped at zero, times weight, plus a second bias. -/
theorem hostDecode_apply (hd : IsPlain d) (X : FVec Ideal ⟨2, ![M, K]⟩ .f32) (B : FVec Ideal ⟨1, ![K]⟩ .f32)
    (W : FVec Ideal ⟨2, ![K, N]⟩ .f32) (B2 : FVec Ideal ⟨1, ![N]⟩ .f32)
    (h1 : (⟨1, ![K]⟩ : Shape).BroadcastsInDim ⟨2, ![1, K]⟩ ![1])
    (h2 : (⟨2, ![1, K]⟩ : Shape).BroadcastsInDim ⟨2, ![M, K]⟩ ![0, 1])
    (h0 : (⟨0, ![]⟩ : Shape).BroadcastsInDim ⟨2, ![M, K]⟩ ![])
    (g1 : (⟨1, ![N]⟩ : Shape).BroadcastsInDim ⟨2, ![1, N]⟩ ![1])
    (g2 : (⟨2, ![1, N]⟩ : Shape).BroadcastsInDim ⟨2, ![M, N]⟩ ![0, 1]) (r : Fin M) (c : Fin N) :
    addf (Host.dotGeneral d none (maximumf (addf X (broadcastInDim ⟨2, ![M, K]⟩ ![0, 1] h2 (broadcastInDim ⟨2, ![1, K]⟩ ![1] h1 B)))
        (broadcastInDim ⟨2, ![M, K]⟩ ![] h0 (constant (F := Ideal) ⟨0, ![]⟩ .f32 0x00000000#32))) W)
        (broadcastInDim ⟨2, ![M, N]⟩ ![0, 1] g2 (broadcastInDim ⟨2, ![1, N]⟩ ![1] g1 B2)) (ix2 r c)
      = (∑ k : Fin K, max (X (ix2 r k) + B (ix1 k)) z * W (ix2 k c)) + B2 (ix1 c) := by
  rw [addf_apply, hostRowBias_apply, hostLayer_apply hd]

end Host

/-! ## The same four shapes over one block of rows (the kernel's spelling) -/

section Block

variable {M K N : Nat} {d : DotDims ⟨2, ![M, K]⟩ ⟨2, ![K, N]⟩ ⟨2, ![M, N]⟩}

/-- Rows times weight plus bias, clipped at zero. -/
theorem blockEncode_apply (hd : IsPlain d) (x : FVec Ideal ⟨2, ![M, K]⟩ .f32) (w : FVec Ideal ⟨2, ![K, N]⟩ .f32)
    (b : FVec Ideal ⟨1, ![N]⟩ .f32)
    (hs : (⟨1, ![N]⟩ : Shape).ShapeCasts ⟨2, ![1, N]⟩) (hb : (⟨2, ![1, N]⟩ : Shape).Broadcasts ⟨2, ![M, N]⟩)
    (r : Fin M) (c : Fin N) :
    maximumf (addf (matmul d none x w (constant ⟨2, ![M, N]⟩ .f32 0x00000000#32))
        (broadcastTo ⟨2, ![M, N]⟩ (shapeCast ⟨2, ![1, N]⟩ b hs) hb))
        (broadcast ⟨2, ![M, N]⟩ (Scalar.ofBits (F := Ideal) .f32 0x00000000#32)) (ix2 r c)
      = max ((∑ k : Fin K, x (ix2 r k) * w (ix2 k c)) + b (ix1 c)) z := by
  rw [maximumf_apply, addf_apply, rowBias_apply, broadcast_apply]
  exact congrArg (fun s => max (s + b (ix1 c)) z) (matmul_zero_apply hd none x w r c)

/-- Input plus bias clipped at zero, at one index. -/
theorem blockActivate_apply (x : FVec Ideal ⟨2, ![M, K]⟩ .f32) (b : FVec Ideal ⟨1, ![K]⟩ .f32)
    (hs : (⟨1, ![K]⟩ : Shape).ShapeCasts ⟨2, ![1, K]⟩) (hb : (⟨2, ![1, K]⟩ : Shape).Broadcasts ⟨2, ![M, K]⟩)
    (r : Fin M) (k : Fin K) :
    maximumf (addf x (broadcastTo ⟨2, ![M, K]⟩ (shapeCast ⟨2, ![1, K]⟩ b hs) hb))
        (broadcast ⟨2, ![M, K]⟩ (Scalar.ofBits (F := Ideal) .f32 0x00000000#32)) (ix2 r k)
      = max (x (ix2 r k) + b (ix1 k)) z := by
  rw [maximumf_apply, addf_apply, rowBias_apply, broadcast_apply]
  rfl

/-- Input plus bias clipped at zero, times weight. -/
theorem blockLayer_apply (hd : IsPlain d) (x : FVec Ideal ⟨2, ![M, K]⟩ .f32) (b : FVec Ideal ⟨1, ![K]⟩ .f32)
    (w : FVec Ideal ⟨2, ![K, N]⟩ .f32)
    (hs : (⟨1, ![K]⟩ : Shape).ShapeCasts ⟨2, ![1, K]⟩) (hb : (⟨2, ![1, K]⟩ : Shape).Broadcasts ⟨2, ![M, K]⟩)
    (r : Fin M) (c : Fin N) :
    matmul d none (maximumf (addf x (broadcastTo ⟨2, ![M, K]⟩ (shapeCast ⟨2, ![1, K]⟩ b hs) hb))
        (broadcast ⟨2, ![M, K]⟩ (Scalar.ofBits (F := Ideal) .f32 0x00000000#32))) w
        (constant ⟨2, ![M, N]⟩ .f32 0x00000000#32) (ix2 r c)
      = ∑ k : Fin K, max (x (ix2 r k) + b (ix1 k)) z * w (ix2 k c) := by
  refine (matmul_zero_apply hd none _ w r c).trans (Finset.sum_congr rfl fun k _ => ?_)
  rw [blockActivate_apply]

/-- Input plus bias clipped at zero, times weight, plus a second bias. -/
theorem blockDecode_apply (hd : IsPlain d) (x : FVec Ideal ⟨2, ![M, K]⟩ .f32) (b : FVec Ideal ⟨1, ![K]⟩ .f32)
    (w : FVec Ideal ⟨2, ![K, N]⟩ .f32) (b2 : FVec Ideal ⟨1, ![N]⟩ .f32)
    (hs : (⟨1, ![K]⟩ : Shape).ShapeCasts ⟨2, ![1, K]⟩) (hb : (⟨2, ![1, K]⟩ : Shape).Broadcasts ⟨2, ![M, K]⟩)
    (gs : (⟨1, ![N]⟩ : Shape).ShapeCasts ⟨2, ![1, N]⟩) (gb : (⟨2, ![1, N]⟩ : Shape).Broadcasts ⟨2, ![M, N]⟩)
    (r : Fin M) (c : Fin N) :
    addf (matmul d none (maximumf (addf x (broadcastTo ⟨2, ![M, K]⟩ (shapeCast ⟨2, ![1, K]⟩ b hs) hb))
        (broadcast ⟨2, ![M, K]⟩ (Scalar.ofBits (F := Ideal) .f32 0x00000000#32))) w
        (constant ⟨2, ![M, N]⟩ .f32 0x00000000#32))
        (broadcastTo ⟨2, ![M, N]⟩ (shapeCast ⟨2, ![1, N]⟩ b2 gs) gb) (ix2 r c)
      = (∑ k : Fin K, max (x (ix2 r k) + b (ix1 k)) z * w (ix2 k c)) + b2 (ix1 c) := by
  rw [addf_apply, rowBias_apply, blockLayer_apply hd]

end Block

end Cert.Dense

end
-- ==== Proof.LibHostRowOps.lean ====
/-
  Host operations on two-dimensional arrays read at one index, on the extended reals.

  A jnp reference that applies dense layers and a row-wise normalisation is a composition of a few host operations on
  [a, b] arrays. Each lemma below reads one of them at the index (r, c), both coordinates explicit: a plain
  `dot_general` is the sum over the shared axis; a `reduce` along the second axis with a maximum body is the fold of
  `max` over that row from the initial value, and the float sum along it is the initial value plus the row's sum; a
  `broadcast_in_dim` of a vector to a [1, b] row or an [a, 1] column, and of such a row or column to an [a, b]
  array, only moves coordinates.
-/
import Idealize.ShloMosaic.PureOps.Ideal.Laws
import Idealize.ShloMosaic.Lib.ValueIdx
import Idealize.ShloMosaic.Lib.Pipeline.Value
import Idealize.ShloMosaic.Lib.IdealHost
import proofs.«157734_j29592324669624_2_alg».proof.Proof.LibRowOps

noncomputable section

namespace Cert.HostRowOps

open Idealize.ShloMosaic Idealize.ShloMosaic.ValueIdx

/-! ## A plain host product -/

section Plain

variable {M K N : Nat} {d : DotDims ⟨2, ![M, K]⟩ ⟨2, ![K, N]⟩ ⟨2, ![M, N]⟩}

/-- The host's plain `[M, K] × [K, N]` product at (r, c): the sum over the shared axis of the products. -/
theorem dot_apply (hd : RowOps.IsPlain d) {φ₁ φ₂ : FTy} (prec : Option ContractPrecision)
    (lhs : FVec Ideal ⟨2, ![M, K]⟩ φ₁) (rhs : FVec Ideal ⟨2, ![K, N]⟩ φ₂) (r : Fin M) (c : Fin N) :
    Host.dotGeneral d prec lhs rhs (ix2 r c) = ∑ k : Fin K, lhs (ix2 r k) * rhs (ix2 k c) := by
  simp only [Host.dotGeneral]
  rw [Ideal.dotGeneral_apply,
    ← Equiv.sum_comp (contrEquiv1 d K (RowOps.contr_rank hd) (RowOps.contr_size hd)).symm]
  refine Finset.sum_congr rfl fun k _ => ?_
  have hk := contrEquiv1_symm_val d K (RowOps.contr_rank hd) (RowOps.contr_size hd) k
  have el : d.lhsIdx (ix2 r c) ((contrEquiv1 d K (RowOps.contr_rank hd) (RowOps.contr_size hd)).symm k) = ix2 r k :=
    funext fun a => Fin.ext (by
      match a with
      | ⟨0, _⟩ => exact RowOps.lhsIdx_row hd _ _
      | ⟨1, _⟩ => exact (d.lhsIdx_val_of_single hd.lc _ _).trans hk)
  have er : d.rhsIdx (ix2 r c) ((contrEquiv1 d K (RowOps.contr_rank hd) (RowOps.contr_size hd)).symm k) = ix2 k c :=
    funext fun a => Fin.ext (by
      match a with
      | ⟨0, _⟩ => exact (d.rhsIdx_val_of_single hd.rc _ _).trans hk
      | ⟨1, _⟩ => exact RowOps.rhsIdx_col hd _ _)
  rw [el, er]

end Plain

/-! ## Host reductions along the second axis -/

section Rows

variable {a b : Nat} {φ : FTy} {u : Shape}

/-- The host's `reduce` with a maximum body along the second axis, at row `r`: the fold of `max` over that row from the
    initial value's element. -/
theorem rowMax_apply (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduce FloatOps.maximumf x init h' hu (ix1 r)
      = (Finset.univ : Finset (Fin b)).fold max (init (Shape.Idx.first hu)) (fun k => x (ix2 r k)) := by
  rw [Host.reduce_eq_fold_single FloatOps.maximumf x init h' h hu]
  exact congrArg (fun f => Finset.fold max (init (Shape.Idx.first hu)) f (Finset.univ : Finset (Fin b)))
    (funext fun k => congrArg x (RowOps.lift_row h r k))

/-- The host's float sum along the second axis, at row `r`: the initial value's element plus the sum of that row. -/
theorem rowSum_apply (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduceAdd x init h' hu (ix1 r) = init (Shape.Idx.first hu) + ∑ k : Fin b, x (ix2 r k) := by
  rw [hostReduceAdd_apply, Ideal.hostReduceAdd_single h' h]
  exact congrArg (init (Shape.Idx.first hu) + ·) (Finset.sum_congr rfl fun k _ => congrArg x (RowOps.lift_row h r k))

end Rows

/-! ## Moving coordinates -/

section Layout

variable {α : Type} {a b : Nat}

/-- A length-`b` vector laid along the second axis of a `[1, b]` row reads, at (u, j), the vector at j. -/
theorem vecToRow_apply (x : (⟨1, ![b]⟩ : Shape).Idx → α)
    (h : (⟨1, ![b]⟩ : Shape).BroadcastsInDim ⟨2, ![1, b]⟩ ![1]) (u : Fin 1) (j : Fin b) :
    broadcastInDim ⟨2, ![1, b]⟩ ![1] h x (ix2 u j) = x (ix1 j) :=
  broadcastInDim_apply _ h x _ _ (fun c => by
    match c with
    | ⟨0, _⟩ =>
      show j.val = if b = 1 then 0 else j.val
      split
      · next h1 => have := j.isLt; omega
      · rfl)

/-- A `[1, b]` row repeated along a first axis reads, at (i, j), the row at (0, j). -/
theorem rowToMat_apply (x : (⟨2, ![1, b]⟩ : Shape).Idx → α)
    (h : (⟨2, ![1, b]⟩ : Shape).BroadcastsInDim ⟨2, ![a, b]⟩ ![0, 1]) (i : Fin a) (j : Fin b) :
    broadcastInDim ⟨2, ![a, b]⟩ ![0, 1] h x (ix2 i j) = x (ix2 (0 : Fin 1) j) :=
  broadcastInDim_apply _ h x _ _ (fun c => by
    match c with
    | ⟨0, _⟩ => show 0 = if (1 : Nat) = 1 then 0 else i.val; rw [if_pos rfl]
    | ⟨1, _⟩ =>
      show j.val = if b = 1 then 0 else j.val
      split
      · next h1 => have := j.isLt; omega
      · rfl)

/-- A length-`a` vector laid along the first axis of an `[a, 1]` column reads, at (i, u), the vector at i. -/
theorem vecToCol_apply (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) :=
  broadcastInDim_apply _ h x _ _ (fun c => by
    match c with
    | ⟨0, _⟩ =>
      show i.val = if a = 1 then 0 else i.val
      split
      · next h1 => have := i.isLt; omega
      · rfl)

/-- An `[a, 1]` column repeated along a second axis reads, at (i, j), the column at (i, 0). -/
theorem colToMat_apply (x : (⟨2, ![a, 1]⟩ : Shape).Idx → α)
    (h : (⟨2, ![a, 1]⟩ : Shape).BroadcastsInDim ⟨2, ![a, b]⟩ ![0, 1]) (i : Fin a) (j : Fin b) :
    broadcastInDim ⟨2, ![a, b]⟩ ![0, 1] h x (ix2 i j) = x (ix2 i (0 : Fin 1)) :=
  broadcastInDim_apply _ h x _ _ (fun c => by
    match c with
    | ⟨0, _⟩ =>
      show i.val = if a = 1 then 0 else i.val
      split
      · next h1 => have := i.isLt; omega
      · rfl
    | ⟨1, _⟩ => show 0 = if (1 : Nat) = 1 then 0 else j.val; rw [if_pos rfl])

end Layout

end Cert.HostRowOps

end
-- ==== Proof.Region0.lean ====
/-
  The first region: rows of the features times the first weight.

  The region walks the 50000 rows in ten blocks of 5000.  At block t it reads rows 5000·t … 5000·t + 4999 of the
  features and the whole weight, multiplies them into a zero accumulator, and writes the product back as rows
  5000·t … 5000·t + 4999 of its result.  Entry (p, q) of a block's product is the sum over k of row 5000·t + p of
  the features times column q of the weight, which is entry (5000·t + p, q) of the whole product: every block of
  the result is a block of one array, the features times the weight, and the ten blocks cover its rows.
-/
import proofs.«157734_j29592324669624_2_alg».proof.Proof.Gen.KernelIdeal.Frame
import proofs.«157734_j29592324669624_2_alg».proof.Proof.Gen.ReferenceIdeal
import proofs.«157734_j29592324669624_2_alg».proof.Proof.LibDense
import proofs.«157734_j29592324669624_2_alg».proof.Proof.LibHostRowOps
import Idealize.ShloMosaic.Lib.Pipeline.Value
import Idealize.ShloMosaic.Lib.Tactic

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Hand

open Cert.KernelIdeal Cert.KernelIdeal.Gen

theorem hz : (![0, 0] : Fin 2 → Nat) = fun _ => 0 := funext fun a => by fin_cases a <;> rfl

/-- The block's product and the whole product contract the second axis of the left operand with the first of the right. -/
theorem plain_block0 : Cert.RowOps.IsPlain dot_S5000x512_S512x128_S5000x128_1_0_0_1_n_n := ⟨rfl, rfl, rfl, rfl, rfl, rfl⟩
theorem plain_whole0 : Cert.RowOps.IsPlain Cert.ReferenceIdeal.dot_S50000x512_S512x128_S50000x128_1_0_0_1_n_n :=
  ⟨rfl, rfl, rfl, rfl, rfl, rfl⟩

/-- The whole product: the host's matrix product of the features and the weight. -/
abbrev proj (X : FVec Ideal S50000x512 .f32) (W : FVec Ideal S512x128 .f32) : FVec Ideal S50000x128 .f32 :=
  Host.dotGeneral Cert.ReferenceIdeal.dot_S50000x512_S512x128_S50000x128_1_0_0_1_n_n none X W

/-- A block's product at (p, q) is the whole product at row o + p, column q, when the block's rows are rows
    o … of the features and its weight is the weight. -/
theorem pay0_at (x0 : Vec Ideal S5000x512 .f32) (x1 : Vec Ideal S512x128 .f32)
    (X : FVec Ideal S50000x512 .f32) (W : FVec Ideal S512x128 .f32) (p : Fin 5000) (q : Fin 128) (r : Fin 50000)
    (h0 : ∀ k : Fin 512, x0 (ix2 p k) = X (ix2 r k)) (h1 : ∀ (k : Fin 512), x1 (ix2 k q) = W (ix2 k q)) :
    k0_pay1 x0 x1 (ix2 p q) = proj X W (ix2 r q) := by
  unfold k0_pay1
  refine (Cert.RowOps.matmul_zero_apply plain_block0 none x0 x1 p q).trans ?_
  refine Eq.trans ?_ (Cert.HostRowOps.dot_apply plain_whole0 none X W r q).symm
  exact Finset.sum_congr rfl fun k _ => by rw [h0 k, h1 k]

section Region

variable (V : (c : Dev nD) → (b : Ref sig .tc) → Buf (Elt Ideal) ((c : Thread nD τ).loc b))

/-- The printed index maps over the grid: the features' block and the result's block sit at block row t, the
    weight's block at the origin. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The features' block at point t holds rows 5000·t … of the features. -/
theorem rows0 (c : Dev nD) (t : Fin cfg0.N) (x : S5000x512.Idx) (k : S50000x512.Idx)
    (hk0 : (k 0).val = t.val * 5000 + (x 0).val) (hk1 : (k 1).val = (x 1).val) :
    (iblk0 V c 0 t : Vec Ideal S5000x512 .f32) x = (V c main_arg0 : S50000x512.Idx → Elt Ideal .f32) k := by
  obtain ⟨e0, e1, -, -, -, -⟩ := idx0 t
  unfold iblk0
  rw [View.read_apply]
  show V c main_arg0 _ = V c main_arg0 _
  congr 1
  funext a
  apply Fin.ext
  match a with
  | ⟨0, _⟩ => show win0_0.index t 0 * 5000 + 1 * (x 0).val = (k 0).val; rw [e0, hk0]; omega
  | ⟨1, _⟩ => show win0_0.index t 1 * 512 + 1 * (x 1).val = (k 1).val; rw [e1, hk1]; omega

/-- The weight's block at every point is the weight. -/
theorem wt0 (c : Dev nD) (t : Fin cfg0.N) (x : S512x128.Idx) :
    (iblk0 V c 1 t : Vec Ideal S512x128 .f32) x = (V c main_arg3 : S512x128.Idx → Elt Ideal .f32) x := by
  obtain ⟨-, -, e2, e3, -, -⟩ := idx0 t
  unfold iblk0
  rw [View.read_apply]
  show V c main_arg3 _ = V c main_arg3 _
  congr 1
  funext a
  apply Fin.ext
  match a with
  | ⟨0, _⟩ => show win0_1.index t 0 * 512 + 1 * (x 0).val = (x 0).val; rw [e2]; omega
  | ⟨1, _⟩ => show win0_1.index t 1 * 128 + 1 * (x 1).val = (x 1).val; rw [e3]; omega

/-- What point t writes back is block t of the whole product. -/
theorem flushed0 (c : Dev nD) (t : Fin cfg0.N) :
    (dat0 V c).flushed 2 t = ((cfg0.win 2).blk t).view.read (Elt Ideal) (proj (V c main_arg0) (V c main_arg3)) := by
  show (cfg0.win 2).cut (grid0.coords t) ((dat0 V c).after 2 t) = _
  rw [after0_2]
  unfold out0_2
  rw [View.canon_unit_zero hz]
  simp only [View.ld_unit_zero (S := S5000x512) hz, View.ld_unit_zero (S := S512x128) hz]
  obtain ⟨-, -, -, -, e4, e5⟩ := idx0 t
  funext j
  obtain ⟨p, q, rfl⟩ : ∃ (p : Fin 5000) (q : Fin 128), j = ix2 p q := ⟨j 0, j 1, eq_ix2 j⟩
  rw [View.read_apply]
  have hN : cfg0.N = 10 := N_0
  have hr : t.val * 5000 + p.val < 50000 := by have := t.isLt; omega
  have hemb : ((cfg0.win 2).blk t).view.emb (ix2 p q) = ix2 (⟨t.val * 5000 + p.val, hr⟩ : Fin 50000) q := by
    funext a
    apply Fin.ext
    match a with
    | ⟨0, _⟩ => show win0_2.index t 0 * 5000 + 1 * p.val = t.val * 5000 + p.val; rw [e4]; omega
    | ⟨1, _⟩ => show win0_2.index t 1 * 128 + 1 * q.val = q.val; rw [e5]; omega
  rw [hemb]
  show k0_pay1 (iblk0 V c 0 t) (iblk0 V c 1 t) (ix2 p q) = _
  exact pay0_at _ _ _ _ p q _ (fun k => rows0 V c t (ix2 p k) (ix2 ⟨_, hr⟩ k) rfl rfl) (fun k => wt0 V c t (ix2 k q))

/-- Every row of the result is in some point's block. -/
theorem cover0 (i : S50000x128.Idx) :
    ∃ t : Fin cfg0.N, (cfg0.win 2).flush t = true ∧ i ∈ ((cfg0.win 2).blk t).view.set := by
  have hN : cfg0.N = 10 := N_0
  have hi0 : (i 0).val < 50000 := (i 0).isLt
  have hi1 : (i 1).val < 128 := (i 1).isLt
  have ht : (i 0).val / 5000 < cfg0.N := by omega
  refine ⟨⟨(i 0).val / 5000, ht⟩, flush0_2 _, ?_⟩
  obtain ⟨-, -, -, -, e4, e5⟩ := idx0 ⟨(i 0).val / 5000, ht⟩
  show i ∈ ((View.whole main_v33).slice (win0_2.rect ⟨(i 0).val / 5000, ht⟩)).set
  rw [View.set_slice_whole, Rect.mem_set_unit]
  intro a
  match a with
  | ⟨0, _⟩ =>
    show win0_2.index ⟨(i 0).val / 5000, ht⟩ 0 * 5000 ≤ (i 0).val ∧ (i 0).val < win0_2.index ⟨(i 0).val / 5000, ht⟩ 0 * 5000 + 5000
    rw [e4]; dsimp only; omega
  | ⟨1, _⟩ =>
    show win0_2.index ⟨(i 0).val / 5000, ht⟩ 1 * 128 ≤ (i 1).val ∧ (i 1).val < win0_2.index ⟨(i 0).val / 5000, ht⟩ 1 * 128 + 128
    rw [e5]; omega

/-- The region's result array ends at the whole product of the features and the weight as the region found them. -/
theorem region0 (c : Dev nD) : (dat0 V c).arrAt 2 cfg0.N = proj (V c main_arg0) (V c main_arg3) :=
  (dat0 V c).arrAt_eq_of_cover 2 _ (fun t _ => flushed0 V c t) cover0

end Region

end Cert.KernelIdeal.Hand

end
-- ==== Proof.LibRowView.lean ====
/-
  A length-n vector viewed as a [1, n] row, read at one index.

  Reshaping a vector of n entries into one row of n entries moves nothing: entry (0, j) of the row is entry j of
  the vector, since both sit at position j of the row-major order.
-/
import Idealize.ShloMosaic.Lib.ValueIdx
import Idealize.ShloMosaic.Lib.Pipeline.Value

noncomputable section

namespace Cert.RowView

open Idealize.ShloMosaic Idealize.ShloMosaic.ValueIdx

variable {α : Type} {n : Nat}

/-- A length-`n` vector viewed as a `[1, n]` row reads, at (u, j), the vector at j. -/
theorem row_apply (x : (⟨1, ![n]⟩ : Shape).Idx → α) (h : (⟨1, ![n]⟩ : Shape).ShapeCasts ⟨2, ![1, n]⟩)
    (u : Fin 1) (j : Fin n) : shapeCast ⟨2, ![1, n]⟩ x h (ix2 u j) = x (ix1 j) :=
  shapeCast_apply x h _ _ (by
    have hu : u.val = 0 := by omega
    rw [Shape.rowMajor_val_one, Shape.rowMajor_val_two]
    show j.val = u.val * n + j.val
    rw [hu, Nat.zero_mul, Nat.zero_add])

end Cert.RowView

end
-- ==== Proof.LibRowAsBroadcast.lean ====
/-
  A vector reshaped to one row is the vector broadcast to one row.

  A kernel's caller hands a length-n bias to the kernel as a [1, n] row by a reshape; a host program that adds the
  same bias to every row of an array first lays it along the second axis of a [1, n] row by a broadcast.  Both rows
  hold entry j of the vector at (0, j): they are the same array.
-/
import Idealize.ShloMosaic.Lib.ValueIdx
import Idealize.ShloMosaic.Lib.Pipeline.Value
import proofs.«157734_j29592324669624_2_alg».proof.Proof.LibRowView
import proofs.«157734_j29592324669624_2_alg».proof.Proof.LibHostRowOps

noncomputable section

namespace Cert.RowAsBroadcast

open Idealize.ShloMosaic Idealize.ShloMosaic.ValueIdx

variable {α : Type} {n : Nat}

/-- The reshape of a length-`n` vector to a `[1, n]` row is its broadcast along the row's second axis. -/
theorem row_eq (x : (⟨1, ![n]⟩ : Shape).Idx → α) (hs : (⟨1, ![n]⟩ : Shape).ShapeCasts ⟨2, ![1, n]⟩)
    (hb : (⟨1, ![n]⟩ : Shape).BroadcastsInDim ⟨2, ![1, n]⟩ ![1]) :
    shapeCast ⟨2, ![1, n]⟩ x hs = broadcastInDim ⟨2, ![1, n]⟩ ![1] hb x :=
  funext fun j => by
    obtain ⟨u, k, rfl⟩ : ∃ (u : Fin 1) (k : Fin n), j = ix2 u k := ⟨j 0, j 1, eq_ix2 j⟩
    rw [Cert.RowView.row_apply, Cert.HostRowOps.vecToRow_apply]

end Cert.RowAsBroadcast

end
-- ==== Proof.Region1.lean ====
/-
  The second region: rows of the aggregated features plus a bias, clipped at zero, times the second weight.

  The region walks the 50000 rows in ten blocks of 5000.  At block t it reads rows 5000·t … 5000·t + 4999 of its
  input, the bias as one row and the whole weight; it adds the bias row to every row, takes the maximum with zero,
  multiplies by the weight into a zero accumulator, and writes the product back as rows 5000·t … of its result.
  Entry (p, q) of a block's product is the sum over k of max(input(5000·t + p, k) + bias(k), 0) · weight(k, q),
  which is entry (5000·t + p, q) of the same expression over the whole arrays: the bias row repeated over all
  rows, the maximum with zero, and the host's matrix product.  Every block of the result is a block of that one
  array, and the ten blocks cover its rows.
-/
import proofs.«157734_j29592324669624_2_alg».proof.Proof.Gen.KernelIdeal.Frame
import proofs.«157734_j29592324669624_2_alg».proof.Proof.Gen.ReferenceIdeal
import proofs.«157734_j29592324669624_2_alg».proof.Proof.LibDense
import proofs.«157734_j29592324669624_2_alg».proof.Proof.LibHostRowOps
import proofs.«157734_j29592324669624_2_alg».proof.Proof.LibRowAsBroadcast
import Idealize.ShloMosaic.Lib.Pipeline.Value
import Idealize.ShloMosaic.Lib.ValueLayout
import Idealize.ShloMosaic.Lib.IdealHost
import Idealize.ShloMosaic.Lib.Tactic

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Hand

open Cert.KernelIdeal Cert.KernelIdeal.Gen

theorem hz1 : (![0, 0] : Fin 2 → Nat) = fun _ => 0 := funext fun a => by fin_cases a <;> rfl

theorem plain_block1 : Cert.RowOps.IsPlain dot_S5000x128_S128x40_S5000x40_1_0_0_1_n_n := ⟨rfl, rfl, rfl, rfl, rfl, rfl⟩
theorem plain_whole1 : Cert.RowOps.IsPlain Cert.ReferenceIdeal.dot_S50000x128_S128x40_S50000x40_1_0_0_1_n_n :=
  ⟨rfl, rfl, rfl, rfl, rfl, rfl⟩

/-- The whole layer over whole arrays: the bias row repeated over the rows and added, the maximum with zero, the
    host's matrix product with the weight. -/
abbrev layer (X : FVec Ideal S50000x128 .f32) (B : FVec Ideal S1x128 .f32) (W : FVec Ideal S128x40 .f32) :
    FVec Ideal S50000x40 .f32 :=
  Host.dotGeneral Cert.ReferenceIdeal.dot_S50000x128_S128x40_S50000x40_1_0_0_1_n_n none
    (maximumf (addf X (broadcastInDim Cert.ReferenceIdeal.S50000x128 ![0, 1] Cert.ReferenceIdeal.Facts₀.bcast_S1x128_S50000x128_0_1 B))
      (broadcastInDim Cert.ReferenceIdeal.S50000x128 ![] Cert.ReferenceIdeal.Facts₀.bcast_S_S50000x128
        (constant (F := Ideal) Cert.ReferenceIdeal.S_ .f32 0x00000000#32))) W

/-- The same layer with the bias given as a vector, which the host lays along one row before repeating the row. -/
abbrev layerV (X : FVec Ideal S50000x128 .f32) (b : FVec Ideal S128 .f32) (W : FVec Ideal S128x40 .f32) :
    FVec Ideal S50000x40 .f32 :=
  Host.dotGeneral Cert.ReferenceIdeal.dot_S50000x128_S128x40_S50000x40_1_0_0_1_n_n none
    (maximumf (addf X (broadcastInDim Cert.ReferenceIdeal.S50000x128 ![0, 1] Cert.ReferenceIdeal.Facts₀.bcast_S1x128_S50000x128_0_1
        (broadcastInDim Cert.ReferenceIdeal.S1x128 ![1] Cert.ReferenceIdeal.Facts₀.bcast_S128_S1x128_1 b)))
      (broadcastInDim Cert.ReferenceIdeal.S50000x128 ![] Cert.ReferenceIdeal.Facts₀.bcast_S_S50000x128
        (constant (F := Ideal) Cert.ReferenceIdeal.S_ .f32 0x00000000#32))) W

/-- The kernel's caller reshapes the bias vector to one row: the layer of that row is the layer of the vector. -/
theorem layer_row (X : FVec Ideal S50000x128 .f32) (b : FVec Ideal S128 .f32) (W : FVec Ideal S128x40 .f32) :
    layer X (shapeCast S1x128 b shapeCasts_S128_S1x128) W = layerV X b W := by
  show Host.dotGeneral _ none (maximumf (addf X (broadcastInDim _ _ _ (shapeCast S1x128 b shapeCasts_S128_S1x128))) _) W = _
  rw [Cert.RowAsBroadcast.row_eq b shapeCasts_S128_S1x128 Cert.ReferenceIdeal.Facts₀.bcast_S128_S1x128_1]

/-- A block's result at (p, q) is the whole layer at row r, column q, when row p of the block is row r of the
    input and the block's bias row and weight are the bias row and the weight. -/
theorem pay1_at (x0 : Vec Ideal S5000x128 .f32) (x1 : Vec Ideal S1x128 .f32) (x2 : Vec Ideal S128x40 .f32)
    (X : FVec Ideal S50000x128 .f32) (B : FVec Ideal S1x128 .f32) (W : FVec Ideal S128x40 .f32)
    (p : Fin 5000) (q : Fin 40) (r : Fin 50000)
    (h0 : ∀ k : Fin 128, x0 (ix2 p k) = X (ix2 r k)) (h1 : ∀ k : Fin 128, x1 (ix2 (0 : Fin 1) k) = B (ix2 (0 : Fin 1) k))
    (h2 : ∀ k : Fin 128, x2 (ix2 k q) = W (ix2 k q)) :
    k1_pay1 x0 x1 x2 (ix2 p q) = layer X B W (ix2 r q) := by
  unfold k1_pay1
  refine (Cert.RowOps.matmul_zero_apply plain_block1 none _ x2 p q).trans ?_
  refine Eq.trans ?_ (Cert.HostRowOps.dot_apply plain_whole1 none _ W r q).symm
  refine Finset.sum_congr rfl fun k _ => ?_
  rw [maximumf_apply, addf_apply, shapeCast_self, shapeCast_self, broadcastTo_1b_ab_apply, broadcast_apply, h0 k, h1 k, h2 k,
    maximumf_apply, addf_apply, Cert.HostRowOps.rowToMat_apply, broadcastInDim_scalar_apply, constant_apply]
  rfl

section Region

variable (V : (c : Dev nD) → (b : Ref sig .tc) → Buf (Elt Ideal) ((c : Thread nD τ).loc b))

/-- The printed index maps over the grid: the input's block and the result's block sit at block row t, the bias
    row's and the weight's blocks at the origin. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The input's block at point t holds rows 5000·t … of the input. -/
theorem rows1 (c : Dev nD) (t : Fin cfg1.N) (x : S5000x128.Idx) (k : S50000x128.Idx)
    (hk0 : (k 0).val = t.val * 5000 + (x 0).val) (hk1 : (k 1).val = (x 1).val) :
    (iblk1 V c 0 t : Vec Ideal S5000x128 .f32) x = (V c main_v46 : S50000x128.Idx → Elt Ideal .f32) k := by
  obtain ⟨e0, e1, -, -, -, -, -, -⟩ := idx1 t
  unfold iblk1
  rw [View.read_apply]
  show V c main_v46 _ = V c main_v46 _
  congr 1
  funext a
  apply Fin.ext
  match a with
  | ⟨0, _⟩ => show win1_0.index t 0 * 5000 + 1 * (x 0).val = (k 0).val; rw [e0, hk0]; omega
  | ⟨1, _⟩ => show win1_0.index t 1 * 128 + 1 * (x 1).val = (k 1).val; rw [e1, hk1]; omega

/-- The bias row's block at every point is the bias row. -/
theorem bias1 (c : Dev nD) (t : Fin cfg1.N) (x : S1x128.Idx) :
    (iblk1 V c 1 t : Vec Ideal S1x128 .f32) x = (V c main_v79 : S1x128.Idx → Elt Ideal .f32) x := by
  obtain ⟨-, -, e2, e3, -, -, -, -⟩ := idx1 t
  unfold iblk1
  rw [View.read_apply]
  show V c main_v79 _ = V c main_v79 _
  congr 1
  funext a
  apply Fin.ext
  match a with
  | ⟨0, _⟩ => show win1_1.index t 0 * 1 + 1 * (x 0).val = (x 0).val; rw [e2]; omega
  | ⟨1, _⟩ => show win1_1.index t 1 * 128 + 1 * (x 1).val = (x 1).val; rw [e3]; omega

/-- The weight's block at every point is the weight. -/
theorem wt1 (c : Dev nD) (t : Fin cfg1.N) (x : S128x40.Idx) :
    (iblk1 V c 2 t : Vec Ideal S128x40 .f32) x = (V c main_arg5 : S128x40.Idx → Elt Ideal .f32) x := by
  obtain ⟨-, -, -, -, e4, e5, -, -⟩ := idx1 t
  unfold iblk1
  rw [View.read_apply]
  show V c main_arg5 _ = V c main_arg5 _
  congr 1
  funext a
  apply Fin.ext
  match a with
  | ⟨0, _⟩ => show win1_2.index t 0 * 128 + 1 * (x 0).val = (x 0).val; rw [e4]; omega
  | ⟨1, _⟩ => show win1_2.index t 1 * 40 + 1 * (x 1).val = (x 1).val; rw [e5]; omega

/-- What point t writes back is block t of the whole layer. -/
theorem flushed1 (c : Dev nD) (t : Fin cfg1.N) :
    (dat1 V c).flushed 3 t
      = ((cfg1.win 3).blk t).view.read (Elt Ideal) (layer (V c main_v46) (V c main_v79) (V c main_arg5)) := by
  show (cfg1.win 3).cut (grid1.coords t) ((dat1 V c).after 3 t) = _
  rw [after1_3]
  unfold out1_3
  rw [View.canon_unit_zero hz1]
  simp only [View.ld_unit_zero (S := S5000x128) hz1, View.ld_unit_zero (S := S1x128) hz1, View.ld_unit_zero (S := S128x40) hz1]
  obtain ⟨-, -, -, -, -, -, e6, e7⟩ := idx1 t
  funext j
  obtain ⟨p, q, rfl⟩ : ∃ (p : Fin 5000) (q : Fin 40), j = ix2 p q := ⟨j 0, j 1, eq_ix2 j⟩
  rw [View.read_apply]
  have hN : cfg1.N = 10 := N_1
  have hr : t.val * 5000 + p.val < 50000 := by have := t.isLt; omega
  have hemb : ((cfg1.win 3).blk t).view.emb (ix2 p q) = ix2 (⟨t.val * 5000 + p.val, hr⟩ : Fin 50000) q := by
    funext a
    apply Fin.ext
    match a with
    | ⟨0, _⟩ => show win1_3.index t 0 * 5000 + 1 * p.val = t.val * 5000 + p.val; rw [e6]; omega
    | ⟨1, _⟩ => show win1_3.index t 1 * 40 + 1 * q.val = q.val; rw [e7]; omega
  rw [hemb]
  show k1_pay1 (iblk1 V c 0 t) (iblk1 V c 1 t) (iblk1 V c 2 t) (ix2 p q) = _
  exact pay1_at _ _ _ _ _ _ p q _ (fun k => rows1 V c t (ix2 p k) (ix2 ⟨_, hr⟩ k) rfl rfl)
    (fun k => bias1 V c t (ix2 (0 : Fin 1) k)) (fun k => wt1 V c t (ix2 k q))

/-- Every row of the result is in some point's block. -/
theorem cover1 (i : S50000x40.Idx) :
    ∃ t : Fin cfg1.N, (cfg1.win 3).flush t = true ∧ i ∈ ((cfg1.win 3).blk t).view.set := by
  have hN : cfg1.N = 10 := N_1
  have hi0 : (i 0).val < 50000 := (i 0).isLt
  have hi1 : (i 1).val < 40 := (i 1).isLt
  have ht : (i 0).val / 5000 < cfg1.N := by omega
  refine ⟨⟨(i 0).val / 5000, ht⟩, flush1_3 _, ?_⟩
  obtain ⟨-, -, -, -, -, -, e6, e7⟩ := idx1 ⟨(i 0).val / 5000, ht⟩
  show i ∈ ((View.whole main_v80).slice (win1_3.rect ⟨(i 0).val / 5000, ht⟩)).set
  rw [View.set_slice_whole, Rect.mem_set_unit]
  intro a
  match a with
  | ⟨0, _⟩ =>
    show win1_3.index ⟨(i 0).val / 5000, ht⟩ 0 * 5000 ≤ (i 0).val ∧ (i 0).val < win1_3.index ⟨(i 0).val / 5000, ht⟩ 0 * 5000 + 5000
    rw [e6]; dsimp only; omega
  | ⟨1, _⟩ =>
    show win1_3.index ⟨(i 0).val / 5000, ht⟩ 1 * 40 ≤ (i 1).val ∧ (i 1).val < win1_3.index ⟨(i 0).val / 5000, ht⟩ 1 * 40 + 40
    rw [e7]; omega

/-- The region's result array ends at the whole layer of its input, bias row and weight as the region found them. -/
theorem region1 (c : Dev nD) :
    (dat1 V c).arrAt 3 cfg1.N = layer (V c main_v46) (V c main_v79) (V c main_arg5) :=
  (dat1 V c).arrAt_eq_of_cover 3 _ (fun t _ => flushed1 V c t) cover1

end Region

end Cert.KernelIdeal.Hand

end
-- ==== Proof.LibRowLogSoftmax.lean ====
/-
  A row-wise log-softmax of an [a, b] vector, read at one index on the extended reals.

  A kernel body that normalises the rows of an [a, b] vector L to log-probabilities takes the maximum m of each row
  (a reduction along the second axis, viewed as an [a, 1] column and repeated along the row), exponentiates L - m,
  sums each row, takes the logarithm of the sum, adds it to m, repeats that column along the row and subtracts it
  from L.  At (p, q) this is L(p, q) - (m_p + log Σ_k exp(L(p, k) - m_p)), where m_p is the fold of `max` over row p
  from the value of the starting word.  Every step only moves coordinates or acts entry by entry, so no entry has to
  be finite.
-/
import Idealize.ShloMosaic.PureOps.Ideal.Laws
import Idealize.ShloMosaic.Lib.ValueIdx
import Idealize.ShloMosaic.Lib.Pipeline.Value
import proofs.«157734_j29592324669624_2_alg».proof.Proof.LibRowOps

noncomputable section

namespace Cert.RowLogSoftmax

open Idealize.ShloMosaic Idealize.ShloMosaic.ValueIdx Cert.RowOps

variable {a b : Nat}

/-- The maximum of row p of L, folded from the value of the word the reduction starts from. -/
def rowMaxFrom (acc : BitVec (FTy.f32).bits) (L : FVec Ideal ⟨2, ![a, b]⟩ .f32) (p : Fin a) : EReal :=
  (Finset.univ : Finset (Fin b)).fold max (Ideal.ofBits .f32 acc) (fun k => L (ix2 p k))

theorem exp_apply {s : Shape} {φ : FTy} (x : FVec Ideal s φ) (i : s.Idx) : exp x i = Ideal.exp (x i) := rfl

theorem log_apply {s : Shape} {φ : FTy} (x : FVec Ideal s φ) (i : s.Idx) : log x i = Ideal.log (x i) := rfl

/-- The row maximum as an [a, 1] column repeated along the row reads, at (p, k), the maximum of row p. -/
theorem maxColumn_apply (L : FVec Ideal ⟨2, ![a, b]⟩ .f32) (accM : BitVec (FTy.f32).bits)
    (hr : (⟨2, ![a, b]⟩ : Shape).Reduces [1] ⟨1, ![a]⟩) (hc : (⟨1, ![a]⟩ : Shape).ShapeCasts ⟨2, ![a, 1]⟩)
    (hb : (⟨2, ![a, 1]⟩ : Shape).Broadcasts ⟨2, ![a, b]⟩)
    (hφ : FKind.Formats .f32) (hM : accM = FKind.maximumf.neutral .f32 hφ) (p : Fin a) (k : Fin b) :
    broadcastTo ⟨2, ![a, b]⟩ (shapeCast ⟨2, ![a, 1]⟩ (multiReduction .maximumf [1] ⟨1, ![a]⟩ L accM hr hφ hM) hc) hb (ix2 p k)
      = rowMaxFrom accM L p := by
  rw [spread_apply, column_apply, rowMax_apply]
  rfl

/-- The log-softmax in the kernel's spelling at (p, q). -/
theorem kernel_apply (L : FVec Ideal ⟨2, ![a, b]⟩ .f32) (accM accS : BitVec (FTy.f32).bits)
    (hr : (⟨2, ![a, b]⟩ : Shape).Reduces [1] ⟨1, ![a]⟩) (hc : (⟨1, ![a]⟩ : Shape).ShapeCasts ⟨2, ![a, 1]⟩)
    (hb : (⟨2, ![a, 1]⟩ : Shape).Broadcasts ⟨2, ![a, b]⟩)
    (hφ : FKind.Formats .f32) (hM : accM = FKind.maximumf.neutral .f32 hφ) (hS : accS = FKind.add.neutral .f32 hφ)
    (p : Fin a) (q : Fin b) :
    subf L (broadcastTo ⟨2, ![a, b]⟩
        (addf (shapeCast ⟨2, ![a, 1]⟩ (multiReduction .maximumf [1] ⟨1, ![a]⟩ L accM hr hφ hM) hc)
          (log (shapeCast ⟨2, ![a, 1]⟩ (multiReduction .add [1] ⟨1, ![a]⟩
            (exp (subf L (broadcastTo ⟨2, ![a, b]⟩
              (shapeCast ⟨2, ![a, 1]⟩ (multiReduction .maximumf [1] ⟨1, ![a]⟩ L accM hr hφ hM) hc) hb)))
            accS hr hφ hS) hc))) hb) (ix2 p q)
      = L (ix2 p q) - (rowMaxFrom accM L p + Ideal.log (∑ k : Fin b, Ideal.exp (L (ix2 p k) - rowMaxFrom accM L p))) := by
  rw [subf_apply, spread_apply, addf_apply, column_apply, rowMax_apply, log_apply, column_apply, rowSum_apply]
  refine congrArg (fun s => L (ix2 p q) - (rowMaxFrom accM L p + Ideal.log s)) (Finset.sum_congr rfl fun k _ => ?_)
  rw [exp_apply, subf_apply, maxColumn_apply]

end Cert.RowLogSoftmax

end
-- ==== Proof.LibRowLogSoftmaxShift.lean ====
/-
  A row-wise log-softmax in the "subtract the maximum first" spelling, read at one index on the extended reals.

  A kernel body that normalises the rows of an [a, b] vector L to log-probabilities may first subtract from every
  row its maximum m (a reduction along the second axis, viewed as an [a, 1] column and repeated along the row),
  giving the shifted rows S = L - m; then exponentiate S, sum each row, take the logarithm of the sum, repeat that
  column along the row and subtract it from S.  At (p, q) this is (L(p, q) - m_p) - log Σ_k exp(L(p, k) - m_p),
  where m_p is the fold of `max` over row p from the value of the starting word.  Every step only moves
  coordinates or acts entry by entry, so no entry has to be finite.
-/
import Idealize.ShloMosaic.PureOps.Ideal.Laws
import Idealize.ShloMosaic.Lib.ValueIdx
import Idealize.ShloMosaic.Lib.Pipeline.Value
import proofs.«157734_j29592324669624_2_alg».proof.Proof.LibRowOps
import proofs.«157734_j29592324669624_2_alg».proof.Proof.LibRowLogSoftmax

noncomputable section

namespace Cert.RowLogSoftmaxShift

open Idealize.ShloMosaic Idealize.ShloMosaic.ValueIdx Cert.RowOps Cert.RowLogSoftmax

variable {a b : Nat}

/-- The rows with their maximum subtracted, in the kernel's spelling, at (p, k). -/
theorem shifted_apply (L : FVec Ideal ⟨2, ![a, b]⟩ .f32) (accM : BitVec (FTy.f32).bits)
    (hr : (⟨2, ![a, b]⟩ : Shape).Reduces [1] ⟨1, ![a]⟩) (hc : (⟨1, ![a]⟩ : Shape).ShapeCasts ⟨2, ![a, 1]⟩)
    (hb : (⟨2, ![a, 1]⟩ : Shape).Broadcasts ⟨2, ![a, b]⟩)
    (hφ : FKind.Formats .f32) (hM : accM = FKind.maximumf.neutral .f32 hφ) (p : Fin a) (k : Fin b) :
    subf L (broadcastTo ⟨2, ![a, b]⟩ (shapeCast ⟨2, ![a, 1]⟩ (multiReduction .maximumf [1] ⟨1, ![a]⟩ L accM hr hφ hM) hc) hb) (ix2 p k)
      = L (ix2 p k) - rowMaxFrom accM L p := by
  rw [subf_apply, maxColumn_apply]

/-- The log-softmax in the kernel's "subtract the maximum first" spelling at (p, q). -/
theorem kernel_apply (L : FVec Ideal ⟨2, ![a, b]⟩ .f32) (accM accS : BitVec (FTy.f32).bits)
    (hr : (⟨2, ![a, b]⟩ : Shape).Reduces [1] ⟨1, ![a]⟩) (hc : (⟨1, ![a]⟩ : Shape).ShapeCasts ⟨2, ![a, 1]⟩)
    (hb : (⟨2, ![a, 1]⟩ : Shape).Broadcasts ⟨2, ![a, b]⟩)
    (hφ : FKind.Formats .f32) (hM : accM = FKind.maximumf.neutral .f32 hφ) (hS : accS = FKind.add.neutral .f32 hφ)
    (p : Fin a) (q : Fin b) :
    subf (subf L (broadcastTo ⟨2, ![a, b]⟩ (shapeCast ⟨2, ![a, 1]⟩ (multiReduction .maximumf [1] ⟨1, ![a]⟩ L accM hr hφ hM) hc) hb))
        (broadcastTo ⟨2, ![a, b]⟩
          (log (shapeCast ⟨2, ![a, 1]⟩ (multiReduction .add [1] ⟨1, ![a]⟩
            (exp (subf L (broadcastTo ⟨2, ![a, b]⟩
              (shapeCast ⟨2, ![a, 1]⟩ (multiReduction .maximumf [1] ⟨1, ![a]⟩ L accM hr hφ hM) hc) hb)))
            accS hr hφ hS) hc)) hb) (ix2 p q)
      = (L (ix2 p q) - rowMaxFrom accM L p) - Ideal.log (∑ k : Fin b, Ideal.exp (L (ix2 p k) - rowMaxFrom accM L p)) := by
  rw [subf_apply, shifted_apply, spread_apply, log_apply, column_apply, rowSum_apply]
  refine congrArg (fun s => (L (ix2 p q) - rowMaxFrom accM L p) - Ideal.log s) (Finset.sum_congr rfl fun k _ => ?_)
  rw [exp_apply, shifted_apply]

/-- Taking the maximum once more with the value the fold started from changes nothing. -/
theorem max_rowMaxFrom (accM : BitVec (FTy.f32).bits) (L : FVec Ideal ⟨2, ![a, b]⟩ .f32) (p : Fin a) :
    max (Ideal.ofBits .f32 accM) (rowMaxFrom accM L p) = rowMaxFrom accM L p :=
  max_eq_right ((Finset.le_fold_max _).mpr (Or.inl le_rfl))

end Cert.RowLogSoftmaxShift

end
-- ==== Proof.Region2.lean ====
/-
  The third region: rows of the aggregated scores plus a bias, normalised to log-probabilities.

  The region walks the 50000 rows in ten blocks of 5000.  At block t it reads rows 5000·t … 5000·t + 4999 of its
  input and the bias as one row; with L the rows plus the bias row, it subtracts from every row its maximum m,
  exponentiates, sums each row, takes the logarithm of the sum and subtracts it: (L(p, q) - m_p) - log Σ_k
  exp(L(p, k) - m_p).  Each entry depends on its own row only, so entry (p, q) of block t is entry (5000·t + p, q)
  of the same normalisation over the whole array, in the host's spelling: the bias row repeated over all rows and
  added, a maximum-reduce along the rows (taken once more with the value it started from, which changes nothing),
  the shifted rows, an add-reduce of their exponentials from zero, the logarithm, the difference.  Every block of
  the result is a block of that one array, and the ten blocks cover its rows.
-/
import proofs.«157734_j29592324669624_2_alg».proof.Proof.Gen.KernelIdeal.Frame
import proofs.«157734_j29592324669624_2_alg».proof.Proof.Gen.ReferenceIdeal
import proofs.«157734_j29592324669624_2_alg».proof.Proof.LibRowLogSoftmaxShift
import proofs.«157734_j29592324669624_2_alg».proof.Proof.LibHostRowOps
import proofs.«157734_j29592324669624_2_alg».proof.Proof.LibRowAsBroadcast
import Idealize.ShloMosaic.Lib.Pipeline.Value
import Idealize.ShloMosaic.Lib.ValueLayout
import Idealize.ShloMosaic.Lib.IdealHost
import Idealize.ShloMosaic.Lib.Tactic

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Hand

open Cert.KernelIdeal Cert.KernelIdeal.Gen Cert.RowLogSoftmax

theorem hz2 : (![0, 0] : Fin 2 → Nat) = fun _ => 0 := funext fun a => by fin_cases a <;> rfl

/-- The word of minus infinity, from which the maxima are folded. -/
abbrev wInf : BitVec (FTy.f32).bits := 0xFF800000#32

/-- The host's row maxima of Y, taken once more with minus infinity. -/
abbrev rowMaxR (Y : FVec Ideal S50000x40 .f32) : FVec Ideal Cert.ReferenceIdeal.S50000 .f32 :=
  maximumf (broadcastInDim Cert.ReferenceIdeal.S50000 ![] Cert.ReferenceIdeal.Facts₀.bcast_S_S50000
      (constant (F := Ideal) Cert.ReferenceIdeal.S_ .f32 0xFF800000#32))
    (Host.reduce FloatOps.maximumf Y (constant (F := Ideal) Cert.ReferenceIdeal.S_ .f32 0xFF800000#32)
      Cert.ReferenceIdeal.Facts₀.reducesTo_S50000x40_S50000_d1 Cert.ReferenceIdeal.Facts₀.h_S_)

/-- The rows of Y with their maxima subtracted, in the host's spelling. -/
abbrev shiftR (Y : FVec Ideal S50000x40 .f32) : FVec Ideal S50000x40 .f32 :=
  subf Y (broadcastInDim Cert.ReferenceIdeal.S50000x40 ![0, 1] Cert.ReferenceIdeal.Facts₀.bcast_S50000x1_S50000x40_0_1
    (broadcastInDim Cert.ReferenceIdeal.S50000x1 ![0] Cert.ReferenceIdeal.Facts₀.bcast_S50000_S50000x1_0 (rowMaxR Y)))

/-- The host's log-softmax of the rows of Y. -/
abbrev lsmOf (Y : FVec Ideal S50000x40 .f32) : FVec Ideal S50000x40 .f32 :=
  subf (shiftR Y) (broadcastInDim Cert.ReferenceIdeal.S50000x40 ![0, 1] Cert.ReferenceIdeal.Facts₀.bcast_S50000x1_S50000x40_0_1
    (Host.log (broadcastInDim Cert.ReferenceIdeal.S50000x1 ![0] Cert.ReferenceIdeal.Facts₀.bcast_S50000_S50000x1_0
      (Host.reduceAdd (Host.exp (shiftR Y)) (constant (F := Ideal) Cert.ReferenceIdeal.S_ .f32 0x00000000#32)
        Cert.ReferenceIdeal.Facts₀.reducesTo_S50000x40_S50000_d1 Cert.ReferenceIdeal.Facts₀.h_S_))))

/-- The whole normalisation over whole arrays: the bias row repeated over the rows and added, then the log-softmax. -/
abbrev lsm (X : FVec Ideal S50000x40 .f32) (B : FVec Ideal S1x40 .f32) : FVec Ideal S50000x40 .f32 :=
  lsmOf (addf X (broadcastInDim Cert.ReferenceIdeal.S50000x40 ![0, 1] Cert.ReferenceIdeal.Facts₀.bcast_S1x40_S50000x40_0_1 B))

/-- The same normalisation with the bias given as a vector, which the host lays along one row before repeating the row. -/
abbrev lsmV (X : FVec Ideal S50000x40 .f32) (b : FVec Ideal S40 .f32) : FVec Ideal S50000x40 .f32 :=
  lsmOf (addf X (broadcastInDim Cert.ReferenceIdeal.S50000x40 ![0, 1] Cert.ReferenceIdeal.Facts₀.bcast_S1x40_S50000x40_0_1
    (broadcastInDim Cert.ReferenceIdeal.S1x40 ![1] Cert.ReferenceIdeal.Facts₀.bcast_S40_S1x40_1 b)))

/-- The kernel's caller reshapes the bias vector to one row: the normalisation with that row is the one with the vector. -/
theorem lsm_row (X : FVec Ideal S50000x40 .f32) (b : FVec Ideal S40 .f32) :
    lsm X (shapeCast S1x40 b shapeCasts_S40_S1x40) = lsmV X b := by
  show lsmOf (addf X (broadcastInDim _ _ _ (shapeCast S1x40 b shapeCasts_S40_S1x40))) = _
  rw [Cert.RowAsBroadcast.row_eq b shapeCasts_S40_S1x40 Cert.ReferenceIdeal.Facts₀.bcast_S40_S1x40_1]

theorem hostLog_apply {s : Shape} {φ : FTy} (x : FVec Ideal s φ) (i : s.Idx) : Host.log x i = Ideal.log (x i) := rfl

theorem hostExp_apply {s : Shape} {φ : FTy} (x : FVec Ideal s φ) (i : s.Idx) : Host.exp x i = Ideal.exp (x i) := rfl

theorem reduces_whole : (⟨2, ![50000, 40]⟩ : Shape).Reduces [1] ⟨1, ![50000]⟩ := by decide

/-- The host's shifted rows at (r, k): the entry minus its row's maximum. -/
theorem shiftR_apply (Y : FVec Ideal S50000x40 .f32) (r : Fin 50000) (k : Fin 40) :
    shiftR Y (ix2 r k) = Y (ix2 r k) - rowMaxFrom wInf Y r := by
  show subf Y _ (ix2 r k) = _
  rw [subf_apply, Cert.HostRowOps.colToMat_apply, Cert.HostRowOps.vecToCol_apply]
  show _ - maximumf _ _ (ix1 r) = _
  rw [maximumf_apply, broadcastInDim_scalar_apply, constant_apply,
    Cert.HostRowOps.rowMax_apply Y _ Cert.ReferenceIdeal.Facts₀.reducesTo_S50000x40_S50000_d1 reduces_whole
      Cert.ReferenceIdeal.Facts₀.h_S_ r, constant_apply]
  exact congrArg (Y (ix2 r k) - ·) (Cert.RowLogSoftmaxShift.max_rowMaxFrom wInf Y r)

/-- The host's log-softmax at (r, q). -/
theorem lsmOf_apply (Y : FVec Ideal S50000x40 .f32) (r : Fin 50000) (q : Fin 40) :
    lsmOf Y (ix2 r q)
      = (Y (ix2 r q) - rowMaxFrom wInf Y r) - Ideal.log (∑ k : Fin 40, Ideal.exp (Y (ix2 r k) - rowMaxFrom wInf Y r)) := by
  show subf (shiftR Y) _ (ix2 r q) = _
  rw [subf_apply, shiftR_apply, Cert.HostRowOps.colToMat_apply, hostLog_apply, Cert.HostRowOps.vecToCol_apply,
    Cert.HostRowOps.rowSum_apply _ _ Cert.ReferenceIdeal.Facts₀.reducesTo_S50000x40_S50000_d1 reduces_whole
      Cert.ReferenceIdeal.Facts₀.h_S_ r, constant_apply, Ideal.ofBits_zero_f32, zero_add]
  refine congrArg (fun s => (Y (ix2 r q) - rowMaxFrom wInf Y r) - Ideal.log s) (Finset.sum_congr rfl fun k _ => ?_)
  rw [hostExp_apply, shiftR_apply]

/-- A block's result at (p, q) is the whole normalisation at row r, column q, when row p of the block is row r of
    the input and the block's bias row is the bias row. -/
theorem pay2_at (x0 : Vec Ideal S5000x40 .f32) (x1 : Vec Ideal S1x40 .f32)
    (X : FVec Ideal S50000x40 .f32) (B : FVec Ideal S1x40 .f32) (p : Fin 5000) (q : Fin 40) (r : Fin 50000)
    (h0 : ∀ k : Fin 40, x0 (ix2 p k) = X (ix2 r k)) (h1 : ∀ k : Fin 40, x1 (ix2 (0 : Fin 1) k) = B (ix2 (0 : Fin 1) k)) :
    k2_pay1 x0 x1 (ix2 p q) = lsm X B (ix2 r q) := by
  have hL : ∀ k : Fin 40,
      addf (shapeCast S5000x40 x0 shapeCasts_S5000x40_S5000x40)
          (broadcastTo S5000x40 (shapeCast S1x40 x1 shapeCasts_S1x40_S1x40) broadcasts_S1x40_S5000x40) (ix2 p k)
        = addf X (broadcastInDim Cert.ReferenceIdeal.S50000x40 ![0, 1] Cert.ReferenceIdeal.Facts₀.bcast_S1x40_S50000x40_0_1 B) (ix2 r k) := by
    intro k
    rw [addf_apply, shapeCast_self, shapeCast_self, broadcastTo_1b_ab_apply, h0 k, h1 k, addf_apply, Cert.HostRowOps.rowToMat_apply]
  have hm : rowMaxFrom wInf (addf (shapeCast S5000x40 x0 shapeCasts_S5000x40_S5000x40)
          (broadcastTo S5000x40 (shapeCast S1x40 x1 shapeCasts_S1x40_S1x40) broadcasts_S1x40_S5000x40)) p
        = rowMaxFrom wInf (addf X (broadcastInDim Cert.ReferenceIdeal.S50000x40 ![0, 1] Cert.ReferenceIdeal.Facts₀.bcast_S1x40_S50000x40_0_1 B)) r := by
    unfold rowMaxFrom
    exact congrArg (fun f => Finset.fold max _ f Finset.univ) (funext hL)
  unfold k2_pay1
  refine (Cert.RowLogSoftmaxShift.kernel_apply _ _ _ _ _ _ _ _ _ p q).trans ?_
  show _ = lsmOf _ (ix2 r q)
  rw [lsmOf_apply]
  show _ - rowMaxFrom wInf _ p - _ = _
  rw [hm, hL q]
  exact congrArg (fun s => _ - Ideal.log s) (Finset.sum_congr rfl fun k _ => by rw [hL k])

section Region

variable (V : (c : Dev nD) → (b : Ref sig .tc) → Buf (Elt Ideal) ((c : Thread nD τ).loc b))

/-- The printed index maps over the grid: the input's block and the result's block sit at block row t, the bias
    row's block at the origin. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The input's block at point t holds rows 5000·t … of the input. -/
theorem rows2 (c : Dev nD) (t : Fin cfg2.N) (x : S5000x40.Idx) (k : S50000x40.Idx)
    (hk0 : (k 0).val = t.val * 5000 + (x 0).val) (hk1 : (k 1).val = (x 1).val) :
    (iblk2 V c 0 t : Vec Ideal S5000x40 .f32) x = (V c main_v93 : S50000x40.Idx → Elt Ideal .f32) k := by
  obtain ⟨e0, e1, -, -, -, -⟩ := idx2 t
  unfold iblk2
  rw [View.read_apply]
  show V c main_v93 _ = V c main_v93 _
  congr 1
  funext a
  apply Fin.ext
  match a with
  | ⟨0, _⟩ => show win2_0.index t 0 * 5000 + 1 * (x 0).val = (k 0).val; rw [e0, hk0]; omega
  | ⟨1, _⟩ => show win2_0.index t 1 * 40 + 1 * (x 1).val = (k 1).val; rw [e1, hk1]; omega

/-- The bias row's block at every point is the bias row. -/
theorem bias2 (c : Dev nD) (t : Fin cfg2.N) (x : S1x40.Idx) :
    (iblk2 V c 1 t : Vec Ideal S1x40 .f32) x = (V c main_v94 : S1x40.Idx → Elt Ideal .f32) x := by
  obtain ⟨-, -, e2, e3, -, -⟩ := idx2 t
  unfold iblk2
  rw [View.read_apply]
  show V c main_v94 _ = V c main_v94 _
  congr 1
  funext a
  apply Fin.ext
  match a with
  | ⟨0, _⟩ => show win2_1.index t 0 * 1 + 1 * (x 0).val = (x 0).val; rw [e2]; omega
  | ⟨1, _⟩ => show win2_1.index t 1 * 40 + 1 * (x 1).val = (x 1).val; rw [e3]; omega

/-- What point t writes back is block t of the whole normalisation. -/
theorem flushed2 (c : Dev nD) (t : Fin cfg2.N) :
    (dat2 V c).flushed 2 t = ((cfg2.win 2).blk t).view.read (Elt Ideal) (lsm (V c main_v93) (V c main_v94)) := by
  show (cfg2.win 2).cut (grid2.coords t) ((dat2 V c).after 2 t) = _
  rw [after2_2]
  unfold out2_2
  rw [View.canon_unit_zero hz2]
  simp only [View.ld_unit_zero (S := S5000x40) hz2, View.ld_unit_zero (S := S1x40) hz2]
  obtain ⟨-, -, -, -, e4, e5⟩ := idx2 t
  funext j
  obtain ⟨p, q, rfl⟩ : ∃ (p : Fin 5000) (q : Fin 40), j = ix2 p q := ⟨j 0, j 1, eq_ix2 j⟩
  rw [View.read_apply]
  have hN : cfg2.N = 10 := N_2
  have hr : t.val * 5000 + p.val < 50000 := by have := t.isLt; omega
  have hemb : ((cfg2.win 2).blk t).view.emb (ix2 p q) = ix2 (⟨t.val * 5000 + p.val, hr⟩ : Fin 50000) q := by
    funext a
    apply Fin.ext
    match a with
    | ⟨0, _⟩ => show win2_2.index t 0 * 5000 + 1 * p.val = t.val * 5000 + p.val; rw [e4]; omega
    | ⟨1, _⟩ => show win2_2.index t 1 * 40 + 1 * q.val = q.val; rw [e5]; omega
  rw [hemb]
  show k2_pay1 (iblk2 V c 0 t) (iblk2 V c 1 t) (ix2 p q) = _
  exact pay2_at _ _ _ _ p q _ (fun k => rows2 V c t (ix2 p k) (ix2 ⟨_, hr⟩ k) rfl rfl)
    (fun k => bias2 V c t (ix2 (0 : Fin 1) k))

/-- Every row of the result is in some point's block. -/
theorem cover2 (i : S50000x40.Idx) :
    ∃ t : Fin cfg2.N, (cfg2.win 2).flush t = true ∧ i ∈ ((cfg2.win 2).blk t).view.set := by
  have hN : cfg2.N = 10 := N_2
  have hi0 : (i 0).val < 50000 := (i 0).isLt
  have hi1 : (i 1).val < 40 := (i 1).isLt
  have ht : (i 0).val / 5000 < cfg2.N := by omega
  refine ⟨⟨(i 0).val / 5000, ht⟩, flush2_2 _, ?_⟩
  obtain ⟨-, -, -, -, e4, e5⟩ := idx2 ⟨(i 0).val / 5000, ht⟩
  show i ∈ ((View.whole main_v95).slice (win2_2.rect ⟨(i 0).val / 5000, ht⟩)).set
  rw [View.set_slice_whole, Rect.mem_set_unit]
  intro a
  match a with
  | ⟨0, _⟩ =>
    show win2_2.index ⟨(i 0).val / 5000, ht⟩ 0 * 5000 ≤ (i 0).val ∧ (i 0).val < win2_2.index ⟨(i 0).val / 5000, ht⟩ 0 * 5000 + 5000
    rw [e4]; dsimp only; omega
  | ⟨1, _⟩ =>
    show win2_2.index ⟨(i 0).val / 5000, ht⟩ 1 * 40 ≤ (i 1).val ∧ (i 1).val < win2_2.index ⟨(i 0).val / 5000, ht⟩ 1 * 40 + 40
    rw [e5]; omega

/-- The region's result array ends at the whole normalisation of its input and bias row as the region found them. -/
theorem region2 (c : Dev nD) : (dat2 V c).arrAt 2 cfg2.N = lsm (V c main_v93) (V c main_v94) :=
  (dat2 V c).arrAt_eq_of_cover 2 _ (fun t _ => flushed2 V c t) cover2

end Region

end Cert.KernelIdeal.Hand

end
-- ==== Proof.LibRegionOp.lean ====
/-
  A pipelined region as one pure operation of a program's fold.

  A program that alternates stretches of host operations with pipelined regions leaves, at each boundary, the
  buffer contents obtained by folding its segments over the launch contents: a host operation rewrites its result
  buffer with its function of its operands, and a region rewrites its arrays with what its write-backs leave.
  When a region's input arrays end as it found them and its one output array ends at a function of those inputs,
  the region rewrites the contents exactly as one host operation with that function would.  The whole program is
  then one line of operations, and what a buffer holds at the end is a computation over that line.
-/
import Idealize.ShloMosaic.Lib.Pipeline.FrameSuffix
import Idealize.ShloMosaic.Lib.StableHlo.Run

noncomputable section

namespace Cert.RegionOp

open Idealize.ShloMosaic Idealize.ShloMosaic.StableHlo Idealize.ShloMosaic.TcCoe

variable {nD : Nat} {τ : Topo} {sig : RefSig} {Val : EltTy → Type}

/-- Two lines run one after the other leave what their concatenation leaves. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

/-- A region whose output array `o` ends at what the operation `op` writes there, whose other arrays end as the
    region found them, and which writes nothing else, leaves what `op` leaves. -/
theorem withArrays_eq_result {gr W : Nat} (win : Fin W → Pipeline.WinSpec sig gr) (hinj : Function.Injective (Pipeline.arrRef win))
    (c : Dev nD) (V : Valuation τ sig Val) (A : (w : Fin W) → Buf Val ((win w).arr.view.loc (c.tc : Thread nD τ)))
    (op : HloOp τ sig Val) (o : Fin W)
    (hw : op.writes = {Proc.devRef .tc (Pipeline.arrRef win o)})
    (hout : A o = op.result V (Proc.devRef .tc (Pipeline.arrRef win o)))
    (hin : ∀ w, w ≠ o → A w = V (Proc.devRef .tc (Pipeline.arrRef win w))) :
    Pipeline.withArrays win c V A = op.result V := by
  funext b
  by_cases h : ∃ w, Proc.devRef .tc (Pipeline.arrRef win w) = b
  · obtain ⟨w, rfl⟩ := h
    rw [Pipeline.withArrays_arr win hinj]
    by_cases hwo : w = o
    · subst hwo; exact hout
    · rw [hin w hwo, op.result_of_not_mem V (by
        rw [hw, Finset.mem_singleton]; exact fun e => hwo (hinj (Proc.devRef_injective _ e)))]
  · have hb : b ∉ op.writes := by
      rw [hw, Finset.mem_singleton]; exact fun e => h ⟨o, e.symm⟩
    rw [op.result_of_not_mem V hb]
    unfold Pipeline.withArrays
    rw [dif_neg h]

end Cert.RegionOp

end
-- ==== Proof.LibLineEval.lean ====
/-
  Evaluating a line of host operations at one buffer, through joined vectors.

  What a buffer holds after a line of host operations is computed by walking the line backwards: an operation's own
  result buffer holds its function of what its operand buffers held before it, any other buffer what it held before.
  The library's one-pass form of this walk stops at a vector made by joining pieces end to end: the join takes its
  pieces as a list of (shape, vector) pairs and its side condition is stated of that list, so the pass cannot rewrite
  a piece and leaves the rest of the walk unevaluated inside it.  Stated as a function of its two pieces — the side
  condition then speaks of the two shapes only — a two-piece join lets the walk continue into both pieces.
  `eval_line` is the one-pass walk with that restatement added, and with the rules that take the first or the last
  so many operations of a literal line, so that a long line can be evaluated in two halves.
-/
import Idealize.ShloMosaic.Lib.StableHlo.Run

noncomputable section

namespace Cert.LineEval

open Idealize.ShloMosaic Idealize.ShloMosaic.StableHlo

/-- Two vectors joined along an axis, as a function of the two vectors. -/
def joined {α : Type} (t : Shape) (a : Fin t.rank) (s₁ s₂ : Shape) (h : Shape.Concatenates [s₁, s₂] t a)
    (x : s₁.Idx → α) (y : s₂.Idx → α) : t.Idx → α :=
  concatenate t a [⟨s₁, x⟩, ⟨s₂, y⟩] h

/-- The join of a two-element list of pieces is that function of the pieces. -/
theorem joined_eq {α : Type} (t : Shape) (a : Fin t.rank) (s₁ s₂ : Shape) (h : Shape.Concatenates [s₁, s₂] t a)
    (x : s₁.Idx → α) (y : s₂.Idx → α) : concatenate t a [⟨s₁, x⟩, ⟨s₂, y⟩] h = joined t a s₁ s₂ h x y := rfl

/-- The walk as one simplification pass over a literal line, or over a literal line's first or last so many
    operations; two-piece joins are entered. Closes a goal `after ops V (Proc.devRef .tc r) = …` or leaves an equation
    between the operations' functions applied to `V` at the buffers the line only reads. -/
macro "eval_line" : tactic =>
  `(tactic| (simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', joined_eq,
      List.take_succ_cons, List.take_zero, List.drop_succ_cons, List.drop_zero]))

end Cert.LineEval

end
-- ==== Proof.Line.lean ====
/-
  The idealized kernel's program as one line of host operations.

  Between its stretches of host operations the program runs three pipelined regions.  Each region leaves its input
  arrays as it found them and its one result array at a function of them: the first the host's matrix product, the
  second the bias row added, the maximum with zero and the host's matrix product, the third the bias row added and
  the host's log-softmax.  The bias row a region reads is a reshape of the bias vector, made by the stretch of host
  operations before it, so the result is the same function of the bias vector laid along a row by a broadcast.  A
  region therefore rewrites the buffer contents exactly as one host operation with that function would, and the
  contents at the last boundary are those of a single line of host operations applied to the launch contents.
-/
import proofs.«157734_j29592324669624_2_alg».proof.Proof.Gen.KernelIdeal.Frame
import proofs.«157734_j29592324669624_2_alg».proof.Proof.Region0
import proofs.«157734_j29592324669624_2_alg».proof.Proof.Region1
import proofs.«157734_j29592324669624_2_alg».proof.Proof.Region2
import proofs.«157734_j29592324669624_2_alg».proof.Proof.LibRegionOp
import proofs.«157734_j29592324669624_2_alg».proof.Proof.LibLineEval

set_option maxRecDepth 16384

noncomputable section

open Idealize.ShloMosaic Idealize.ShloMosaic.TcCoe Idealize.ShloMosaic.StableHlo Idealize.SL.Sem
open Idealize.ShloMosaic.Pipeline (Dat)

namespace Cert.KernelIdeal.Hand

open Cert.KernelIdeal Cert.KernelIdeal.Gen Cert.LineEval

variable (m : (ℓ : Loc nD τ sig) → Buf (Elt Ideal) ℓ) (ρ : Dev nD → PrngReg)

/-- The first region as a host operation: the features times the first weight. -/
abbrev op0 : HloOp τ sig (Elt Ideal) :=
  binary main_arg0 main_arg3 main_v33
    (proj : (⟨S50000x512, .f32⟩ : BufTy).Contents (Elt Ideal) → (⟨S512x128, .f32⟩ : BufTy).Contents (Elt Ideal) → (⟨S50000x128, .f32⟩ : BufTy).Contents (Elt Ideal))

/-- The second region as a host operation: bias, clip at zero, times the second weight. -/
abbrev op1 : HloOp τ sig (Elt Ideal) :=
  ternary main_v46 main_arg4 main_arg5 main_v80
    (layerV : (⟨S50000x128, .f32⟩ : BufTy).Contents (Elt Ideal) → (⟨S128, .f32⟩ : BufTy).Contents (Elt Ideal) → (⟨S128x40, .f32⟩ : BufTy).Contents (Elt Ideal) → (⟨S50000x40, .f32⟩ : BufTy).Contents (Elt Ideal))

/-- The third region as a host operation: bias, log-softmax of the rows. -/
abbrev op2 : HloOp τ sig (Elt Ideal) :=
  binary main_v93 main_arg6 main_v95
    (lsmV : (⟨S50000x40, .f32⟩ : BufTy).Contents (Elt Ideal) → (⟨S40, .f32⟩ : BufTy).Contents (Elt Ideal) → (⟨S50000x40, .f32⟩ : BufTy).Contents (Elt Ideal))

/-- The first region leaves what its operation leaves. -/
theorem W4_eq (c : Dev nD) : W4 m ρ c = op0.result (W3 m ρ c) := by
  unfold W4
  refine Cert.RegionOp.withArrays_eq_result spec0 launch0.win.arr_inj c (W3 m ρ c) _ op0 2 rfl ?_ ?_
  · show (dat0 (V3 m ρ) c).arrAt 2 cfg0.N = op0.result (W3 m ρ c) (Proc.devRef .tc main_v33)
    rw [region0 (V3 m ρ) c, binary_result']
  · intro w hw
    match w, hw with
    | ⟨0, _⟩, _ => exact ((dat0 (V3 m ρ) c).arrAt_in 0 rfl _).trans (A_eq0 (V3 m ρ) c 0)
    | ⟨1, _⟩, _ => exact ((dat0 (V3 m ρ) c).arrAt_in 1 rfl _).trans (A_eq0 (V3 m ρ) c 1)
    | ⟨2, _⟩, hw => exact absurd rfl hw

/-- At the second region's entry the bias row is the first bias vector reshaped. -/
theorem row79 (c : Dev nD) : W7 m ρ c (Proc.devRef .tc main_v79)
    = shapeCast S1x128 (W7 m ρ c (Proc.devRef .tc main_arg4)) shapeCasts_S128_S1x128 := by
  have e1 : W7 m ρ c (Proc.devRef .tc main_v79)
      = shapeCast S1x128 (W6 m ρ c (Proc.devRef .tc main_arg4)) shapeCasts_S128_S1x128 := by
    simp only [W7]
    eval_line
    try rfl
  have e2 : W7 m ρ c (Proc.devRef .tc main_arg4) = W6 m ρ c (Proc.devRef .tc main_arg4) := by
    simp only [W7]
    eval_line
  exact e1.trans (congrArg (fun b => shapeCast S1x128 b shapeCasts_S128_S1x128) e2.symm)

/-- At the third region's entry the bias row is the second bias vector reshaped. -/
theorem row94 (c : Dev nD) : W9 m ρ c (Proc.devRef .tc main_v94)
    = shapeCast S1x40 (W9 m ρ c (Proc.devRef .tc main_arg6)) shapeCasts_S40_S1x40 := by
  have e1 : W9 m ρ c (Proc.devRef .tc main_v94)
      = shapeCast S1x40 (W8 m ρ c (Proc.devRef .tc main_arg6)) shapeCasts_S40_S1x40 := by
    simp only [W9]
    eval_line
    try rfl
  have e2 : W9 m ρ c (Proc.devRef .tc main_arg6) = W8 m ρ c (Proc.devRef .tc main_arg6) := by
    simp only [W9]
    eval_line
  exact e1.trans (congrArg (fun b => shapeCast S1x40 b shapeCasts_S40_S1x40) e2.symm)

/-- The second region leaves what its operation leaves. -/
theorem W8_eq (c : Dev nD) : W8 m ρ c = op1.result (W7 m ρ c) := by
  unfold W8
  refine Cert.RegionOp.withArrays_eq_result spec1 launch1.win.arr_inj c (W7 m ρ c) _ op1 3 rfl ?_ ?_
  · show (dat1 (V7 m ρ) c).arrAt 3 cfg1.N = op1.result (W7 m ρ c) (Proc.devRef .tc main_v80)
    rw [region1 (V7 m ρ) c, ternary_result']
    show layer (W7 m ρ c (Proc.devRef .tc main_v46)) (W7 m ρ c (Proc.devRef .tc main_v79)) (W7 m ρ c (Proc.devRef .tc main_arg5))
      = layerV (W7 m ρ c (Proc.devRef .tc main_v46)) (W7 m ρ c (Proc.devRef .tc main_arg4)) (W7 m ρ c (Proc.devRef .tc main_arg5))
    rw [row79 m ρ c]
    exact layer_row _ _ _
  · intro w hw
    match w, hw with
    | ⟨0, _⟩, _ => exact ((dat1 (V7 m ρ) c).arrAt_in 0 rfl _).trans (A_eq1 (V7 m ρ) c 0)
    | ⟨1, _⟩, _ => exact ((dat1 (V7 m ρ) c).arrAt_in 1 rfl _).trans (A_eq1 (V7 m ρ) c 1)
    | ⟨2, _⟩, _ => exact ((dat1 (V7 m ρ) c).arrAt_in 2 rfl _).trans (A_eq1 (V7 m ρ) c 2)
    | ⟨3, _⟩, hw => exact absurd rfl hw

/-- The third region leaves what its operation leaves. -/
theorem W10_eq (c : Dev nD) : W10 m ρ c = op2.result (W9 m ρ c) := by
  unfold W10
  refine Cert.RegionOp.withArrays_eq_result spec2 launch2.win.arr_inj c (W9 m ρ c) _ op2 2 rfl ?_ ?_
  · show (dat2 (V9 m ρ) c).arrAt 2 cfg2.N = op2.result (W9 m ρ c) (Proc.devRef .tc main_v95)
    rw [region2 (V9 m ρ) c, binary_result']
    show lsm (W9 m ρ c (Proc.devRef .tc main_v93)) (W9 m ρ c (Proc.devRef .tc main_v94))
      = lsmV (W9 m ρ c (Proc.devRef .tc main_v93)) (W9 m ρ c (Proc.devRef .tc main_arg6))
    rw [row94 m ρ c]
    exact lsm_row _ _
  · intro w hw
    match w, hw with
    | ⟨0, _⟩, _ => exact ((dat2 (V9 m ρ) c).arrAt_in 0 rfl _).trans (A_eq2 (V9 m ρ) c 0)
    | ⟨1, _⟩, _ => exact ((dat2 (V9 m ρ) c).arrAt_in 1 rfl _).trans (A_eq2 (V9 m ρ) c 1)
    | ⟨2, _⟩, hw => exact absurd rfl hw

end Cert.KernelIdeal.Hand

end
-- ==== Proof.LibTypedRef.lean ====
/-
  Typed references and the transports they carry.

  A typed reference pairs a buffer with the type of the tensor value it holds; contents at the value's type are moved to
  contents of the buffer and back along the equation between the two types.  The transports change nothing: going there and
  back is the identity, and a transported value equals any value of the other type that it is heterogeneously equal to.
-/
import Idealize.ShloMosaic.Lib.StableHlo.Run

noncomputable section

namespace Cert.TypedRef

open Idealize.ShloMosaic Idealize.ShloMosaic.StableHlo

variable {sig : RefSig} {Val : EltTy → Type} {T : BufTy}

/-- To the buffer's type and back is the identity. -/
theorem ofBuf_toBuf (x : TRef sig T) (v : T.Contents Val) : x.ofBuf (x.toBuf v) = v := by
  obtain ⟨r, h, h1, h2⟩ := x
  subst h
  rfl

/-- A value moved to the buffer's type is any value of that type it is heterogeneously equal to. -/
theorem toBuf_eq (x : TRef sig T) (v : T.Contents Val) (w : x.ref.ty.Contents Val) (h : HEq v w) : x.toBuf v = w :=
  eq_of_heq ((cast_heq _ v).trans h)

/-- A value moved from the buffer's type is any value of the value's type it is heterogeneously equal to. -/
theorem ofBuf_eq (x : TRef sig T) (v : x.ref.ty.Contents Val) (w : T.Contents Val) (h : HEq v w) : x.ofBuf v = w :=
  eq_of_heq ((cast_heq _ v).trans h)

end Cert.TypedRef

end
-- ==== Proof.Bridge.lean ====
/-
  The two programs return the same array: a comparison stage by stage.

  Both programs are lines of host operations from their launch contents (the kernel program's regions standing in
  its line as single operations).  The lines are cut at the same places: after the first edge normalisation, after
  the first aggregation, after the second edge normalisation, after the second aggregation, and at the end.  At each
  cut the buffers that later operations read hold equal arrays in the two programs: the source and destination
  indices and the normalised edge weights (the same operations of the edge list and edge weights), the aggregated
  rows (the same gather, product and scatter-add of equal arrays), and finally the result.  Each equality is between
  the two short stretches' operations applied to arrays already known equal.
-/
import proofs.«157734_j29592324669624_2_alg».proof.Proof.Line
import proofs.«157734_j29592324669624_2_alg».proof.Proof.RefRunP
import proofs.«157734_j29592324669624_2_alg».proof.Proof.LibLineEval
import proofs.«157734_j29592324669624_2_alg».proof.Proof.LibRegionOp
import proofs.«157734_j29592324669624_2_alg».proof.Proof.LibTypedRef

set_option maxRecDepth 16384
set_option Elab.async false

noncomputable section

open Idealize.ShloMosaic Idealize.ShloMosaic.TcCoe Idealize.ShloMosaic.StableHlo Idealize.SL.Sem

namespace Cert.KernelIdeal.Hand

open Cert.KernelIdeal Cert.KernelIdeal.Gen Cert.LineEval

/-- A line run in two parts: its first n operations, then the rest. -/
theorem after_take_drop {τ : Topo} {sig : RefSig} {Val : EltTy → Type} (n : Nat) (l : List (HloOp τ sig Val))
    (V : Valuation τ sig Val) : after l V = after (l.drop n) (after (l.take n) V) := by
  conv_lhs => rw [← List.take_append_drop n l]
  exact Cert.RegionOp.after_append _ _ _

/-- The reference's operations. -/
abbrev rops : List (HloOp Cert.ReferenceIdeal.τ Cert.ReferenceIdeal.sig (Elt Ideal)) := Cert.ReferenceIdeal.ValueP.ops (F := Ideal)

section Stages

variable (m : (ℓ : Loc nD τ sig) → Buf (Elt Ideal) ℓ) (ρ : Dev nD → PrngReg)
variable (m' : (ℓ : Loc Cert.ReferenceIdeal.nD Cert.ReferenceIdeal.τ Cert.ReferenceIdeal.sig) → Buf (Elt Ideal) ℓ) (c : Dev nD)

/-- The reference's buffer contents after its first edge normalisation, -/
def RA : Valuation Cert.ReferenceIdeal.τ Cert.ReferenceIdeal.sig (Elt Ideal) := after (rops.take 44) (launchContents m' c)
/-- after its first aggregation, -/
def RB : Valuation Cert.ReferenceIdeal.τ Cert.ReferenceIdeal.sig (Elt Ideal) := after ((rops.drop 44).take 17) (RA m' c)
/-- after its first bias, clip at zero and second edge normalisation, -/
def RC : Valuation Cert.ReferenceIdeal.τ Cert.ReferenceIdeal.sig (Elt Ideal) := after (((rops.drop 44).drop 17).take 48) (RB m' c)
/-- after its second aggregation, -/
def RD : Valuation Cert.ReferenceIdeal.τ Cert.ReferenceIdeal.sig (Elt Ideal) := after ((((rops.drop 44).drop 17).drop 48).take 17) (RC m' c)
/-- and at its end. -/
def RE : Valuation Cert.ReferenceIdeal.τ Cert.ReferenceIdeal.sig (Elt Ideal) := after ((((rops.drop 44).drop 17).drop 48).drop 17) (RD m' c)

/-- The reference's result is what its last stage leaves in the result buffer. -/
theorem res_stages : Cert.ReferenceIdeal.ValueP.res_main_v100 m' c = RE m' c (Proc.devRef .tc Cert.ReferenceIdeal.main_v100) := by
  unfold Cert.ReferenceIdeal.ValueP.res_main_v100 RE RD RC RB RA
  show after rops (launchContents m' c) _ = _
  rw [after_take_drop 44 rops, after_take_drop 17 (rops.drop 44), after_take_drop 48 ((rops.drop 44).drop 17),
    after_take_drop 17 (((rops.drop 44).drop 17).drop 48)]

/-! ## The argument arrays are read through every stage unchanged -/

theorem w3a0 : W3 m ρ c (Proc.devRef .tc main_arg0) = W0 m ρ c (Proc.devRef .tc main_arg0) := by
  simp only [W3, W2, W1]
  eval_line

theorem w3a1 : W3 m ρ c (Proc.devRef .tc main_arg1) = W0 m ρ c (Proc.devRef .tc main_arg1) := by
  simp only [W3, W2, W1]
  eval_line

theorem w3a2 : W3 m ρ c (Proc.devRef .tc main_arg2) = W0 m ρ c (Proc.devRef .tc main_arg2) := by
  simp only [W3, W2, W1]
  eval_line

theorem w3a3 : W3 m ρ c (Proc.devRef .tc main_arg3) = W0 m ρ c (Proc.devRef .tc main_arg3) := by
  simp only [W3, W2, W1]
  eval_line

theorem w3a4 : W3 m ρ c (Proc.devRef .tc main_arg4) = W0 m ρ c (Proc.devRef .tc main_arg4) := by
  simp only [W3, W2, W1]
  eval_line

theorem w3a5 : W3 m ρ c (Proc.devRef .tc main_arg5) = W0 m ρ c (Proc.devRef .tc main_arg5) := by
  simp only [W3, W2, W1]
  eval_line

theorem w3a6 : W3 m ρ c (Proc.devRef .tc main_arg6) = W0 m ρ c (Proc.devRef .tc main_arg6) := by
  simp only [W3, W2, W1]
  eval_line

theorem w4a1 : W4 m ρ c (Proc.devRef .tc main_arg1) = W0 m ρ c (Proc.devRef .tc main_arg1) :=
  (W4_of_ne m ρ c main_arg1 (by decide)).trans (w3a1 m ρ c)

theorem w4a2 : W4 m ρ c (Proc.devRef .tc main_arg2) = W0 m ρ c (Proc.devRef .tc main_arg2) :=
  (W4_of_ne m ρ c main_arg2 (by decide)).trans (w3a2 m ρ c)

theorem w4a4 : W4 m ρ c (Proc.devRef .tc main_arg4) = W0 m ρ c (Proc.devRef .tc main_arg4) :=
  (W4_of_ne m ρ c main_arg4 (by decide)).trans (w3a4 m ρ c)

theorem w4a5 : W4 m ρ c (Proc.devRef .tc main_arg5) = W0 m ρ c (Proc.devRef .tc main_arg5) :=
  (W4_of_ne m ρ c main_arg5 (by decide)).trans (w3a5 m ρ c)

theorem w4a6 : W4 m ρ c (Proc.devRef .tc main_arg6) = W0 m ρ c (Proc.devRef .tc main_arg6) :=
  (W4_of_ne m ρ c main_arg6 (by decide)).trans (w3a6 m ρ c)

theorem w7a4 : W7 m ρ c (Proc.devRef .tc main_arg4) = W0 m ρ c (Proc.devRef .tc main_arg4) := by
  simp only [W7, W6, W5]
  eval_line
  exact w4a4 m ρ c

theorem w7a5 : W7 m ρ c (Proc.devRef .tc main_arg5) = W0 m ρ c (Proc.devRef .tc main_arg5) := by
  simp only [W7, W6, W5]
  eval_line
  exact w4a5 m ρ c

theorem w7a6 : W7 m ρ c (Proc.devRef .tc main_arg6) = W0 m ρ c (Proc.devRef .tc main_arg6) := by
  simp only [W7, W6, W5]
  eval_line
  exact w4a6 m ρ c

theorem w8a6 : W8 m ρ c (Proc.devRef .tc main_arg6) = W0 m ρ c (Proc.devRef .tc main_arg6) :=
  (W8_of_ne m ρ c main_arg6 (by decide)).trans (w7a6 m ρ c)

theorem w9a6 : W9 m ρ c (Proc.devRef .tc main_arg6) = W0 m ρ c (Proc.devRef .tc main_arg6) := by
  simp only [W9]
  eval_line
  exact w8a6 m ρ c

theorem rAa0 : RA m' c (Proc.devRef .tc Cert.ReferenceIdeal.main_arg0) = launchContents m' c (Proc.devRef .tc Cert.ReferenceIdeal.main_arg0) := by
  unfold RA
  eval_line

theorem rAa1 : RA m' c (Proc.devRef .tc Cert.ReferenceIdeal.main_arg1) = launchContents m' c (Proc.devRef .tc Cert.ReferenceIdeal.main_arg1) := by
  unfold RA
  eval_line

theorem rAa2 : RA m' c (Proc.devRef .tc Cert.ReferenceIdeal.main_arg2) = launchContents m' c (Proc.devRef .tc Cert.ReferenceIdeal.main_arg2) := by
  unfold RA
  eval_line

theorem rAa3 : RA m' c (Proc.devRef .tc Cert.ReferenceIdeal.main_arg3) = launchContents m' c (Proc.devRef .tc Cert.ReferenceIdeal.main_arg3) := by
  unfold RA
  eval_line

theorem rAa4 : RA m' c (Proc.devRef .tc Cert.ReferenceIdeal.main_arg4) = launchContents m' c (Proc.devRef .tc Cert.ReferenceIdeal.main_arg4) := by
  unfold RA
  eval_line

theorem rAa5 : RA m' c (Proc.devRef .tc Cert.ReferenceIdeal.main_arg5) = launchContents m' c (Proc.devRef .tc Cert.ReferenceIdeal.main_arg5) := by
  unfold RA
  eval_line

theorem rAa6 : RA m' c (Proc.devRef .tc Cert.ReferenceIdeal.main_arg6) = launchContents m' c (Proc.devRef .tc Cert.ReferenceIdeal.main_arg6) := by
  unfold RA
  eval_line

theorem rBa1 : RB m' c (Proc.devRef .tc Cert.ReferenceIdeal.main_arg1) = launchContents m' c (Proc.devRef .tc Cert.ReferenceIdeal.main_arg1) := by
  unfold RB
  eval_line
  exact rAa1 m' c

theorem rBa2 : RB m' c (Proc.devRef .tc Cert.ReferenceIdeal.main_arg2) = launchContents m' c (Proc.devRef .tc Cert.ReferenceIdeal.main_arg2) := by
  unfold RB
  eval_line
  exact rAa2 m' c

theorem rBa4 : RB m' c (Proc.devRef .tc Cert.ReferenceIdeal.main_arg4) = launchContents m' c (Proc.devRef .tc Cert.ReferenceIdeal.main_arg4) := by
  unfold RB
  eval_line
  exact rAa4 m' c

theorem rBa5 : RB m' c (Proc.devRef .tc Cert.ReferenceIdeal.main_arg5) = launchContents m' c (Proc.devRef .tc Cert.ReferenceIdeal.main_arg5) := by
  unfold RB
  eval_line
  exact rAa5 m' c

theorem rBa6 : RB m' c (Proc.devRef .tc Cert.ReferenceIdeal.main_arg6) = launchContents m' c (Proc.devRef .tc Cert.ReferenceIdeal.main_arg6) := by
  unfold RB
  eval_line
  exact rAa6 m' c

theorem rCa5 : RC m' c (Proc.devRef .tc Cert.ReferenceIdeal.main_arg5) = launchContents m' c (Proc.devRef .tc Cert.ReferenceIdeal.main_arg5) := by
  unfold RC
  eval_line
  exact rBa5 m' c

theorem rCa6 : RC m' c (Proc.devRef .tc Cert.ReferenceIdeal.main_arg6) = launchContents m' c (Proc.devRef .tc Cert.ReferenceIdeal.main_arg6) := by
  unfold RC
  eval_line
  exact rBa6 m' c

theorem rDa6 : RD m' c (Proc.devRef .tc Cert.ReferenceIdeal.main_arg6) = launchContents m' c (Proc.devRef .tc Cert.ReferenceIdeal.main_arg6) := by
  unfold RD
  eval_line
  exact rCa6 m' c

/-! ## The regions' results from their entry contents -/

/-- The first region's result: the features times the first weight. -/
theorem k33 : W4 m ρ c (Proc.devRef .tc main_v33) = proj (W0 m ρ c (Proc.devRef .tc main_arg0)) (W0 m ρ c (Proc.devRef .tc main_arg3)) := by
  rw [W4_eq, binary_result', w3a0, w3a3]

/-- The second region's result: the layer of the aggregated rows, the first bias and the second weight. -/
theorem k80 : W8 m ρ c (Proc.devRef .tc main_v80)
    = layerV (W7 m ρ c (Proc.devRef .tc main_v46)) (W0 m ρ c (Proc.devRef .tc main_arg4)) (W0 m ρ c (Proc.devRef .tc main_arg5)) := by
  rw [W8_eq, ternary_result', w7a4, w7a5]

/-- The rows plus the bias, clipped at zero, in the host's spelling. -/
abbrev reluBias (X : FVec Ideal S50000x128 .f32) (b : FVec Ideal S128 .f32) : FVec Ideal S50000x128 .f32 :=
  maximumf (addf X (broadcastInDim Cert.ReferenceIdeal.S50000x128 ![0, 1] Cert.ReferenceIdeal.Facts₀.bcast_S1x128_S50000x128_0_1
      (broadcastInDim Cert.ReferenceIdeal.S1x128 ![1] Cert.ReferenceIdeal.Facts₀.bcast_S128_S1x128_1 b)))
    (broadcastInDim Cert.ReferenceIdeal.S50000x128 ![] Cert.ReferenceIdeal.Facts₀.bcast_S_S50000x128 (constant (F := Ideal) Cert.ReferenceIdeal.S_ .f32 0x00000000#32))

/-- The reference's clipped rows from its aggregated rows and the first bias. -/
theorem r50 : RC m' c (Proc.devRef .tc Cert.ReferenceIdeal.main_v50) = reluBias (RB m' c (Proc.devRef .tc Cert.ReferenceIdeal.main_v46)) (launchContents m' c (Proc.devRef .tc Cert.ReferenceIdeal.main_arg4)) := by
  generalize hX : reluBias (RB m' c (Proc.devRef .tc Cert.ReferenceIdeal.main_v46)) (launchContents m' c (Proc.devRef .tc Cert.ReferenceIdeal.main_arg4)) = X
  unfold RC
  eval_line
  have c49 : ∀ v, (TRef.of (T := ⟨Cert.ReferenceIdeal.S50000x128, .f32⟩) Cert.ReferenceIdeal.main_v49).ofBuf (Val := Elt Ideal) v = v := fun v => rfl
  have c50 : ∀ v, (TRef.of (T := ⟨Cert.ReferenceIdeal.S50000x128, .f32⟩) Cert.ReferenceIdeal.main_v50).toBuf (Val := Elt Ideal) v = v := fun v => rfl
  simp only [Cert.TypedRef.ofBuf_toBuf, c49, c50, rBa4 m' c]
  subst hX
  rfl

/-! ## The first edge normalisation -/

variable (h0 : m' ((c.tc : Thread Cert.ReferenceIdeal.nD Cert.ReferenceIdeal.τ).loc Cert.ReferenceIdeal.main_arg0) = m ((c.tc : Thread nD τ).loc main_arg0))
  (h1 : m' ((c.tc : Thread Cert.ReferenceIdeal.nD Cert.ReferenceIdeal.τ).loc Cert.ReferenceIdeal.main_arg1) = m ((c.tc : Thread nD τ).loc main_arg1))
  (h2 : m' ((c.tc : Thread Cert.ReferenceIdeal.nD Cert.ReferenceIdeal.τ).loc Cert.ReferenceIdeal.main_arg2) = m ((c.tc : Thread nD τ).loc main_arg2))
  (h3 : m' ((c.tc : Thread Cert.ReferenceIdeal.nD Cert.ReferenceIdeal.τ).loc Cert.ReferenceIdeal.main_arg3) = m ((c.tc : Thread nD τ).loc main_arg3))
  (h4 : m' ((c.tc : Thread Cert.ReferenceIdeal.nD Cert.ReferenceIdeal.τ).loc Cert.ReferenceIdeal.main_arg4) = m ((c.tc : Thread nD τ).loc main_arg4))
  (h5 : m' ((c.tc : Thread Cert.ReferenceIdeal.nD Cert.ReferenceIdeal.τ).loc Cert.ReferenceIdeal.main_arg5) = m ((c.tc : Thread nD τ).loc main_arg5))
  (h6 : m' ((c.tc : Thread Cert.ReferenceIdeal.nD Cert.ReferenceIdeal.τ).loc Cert.ReferenceIdeal.main_arg6) = m ((c.tc : Thread nD τ).loc main_arg6))

include h1 in
/-- The source indices with self-loops appended. -/
theorem eA4 : W3 m ρ c (Proc.devRef .tc main_v4) = RA m' c (Proc.devRef .tc Cert.ReferenceIdeal.main_v4) := by
  have l1 : launchContents m' c (Proc.devRef .tc Cert.ReferenceIdeal.main_arg1) = W0 m ρ c (Proc.devRef .tc main_arg1) := h1
  unfold RA
  simp only [W3, W2, W1]
  eval_line
  simp only [l1]
  rfl

include h1 in
/-- The destination indices with self-loops appended. -/
theorem eA7 : W3 m ρ c (Proc.devRef .tc main_v7) = RA m' c (Proc.devRef .tc Cert.ReferenceIdeal.main_v7) := by
  have l1 : launchContents m' c (Proc.devRef .tc Cert.ReferenceIdeal.main_arg1) = W0 m ρ c (Proc.devRef .tc main_arg1) := h1
  unfold RA
  simp only [W3, W2, W1]
  eval_line
  simp only [l1]
  rfl

include h1 in
/-- The first layer's normalised edge weights. -/
theorem eA32 : W3 m ρ c (Proc.devRef .tc main_v32) = RA m' c (Proc.devRef .tc Cert.ReferenceIdeal.main_v32) := by
  have l1 : launchContents m' c (Proc.devRef .tc Cert.ReferenceIdeal.main_arg1) = W0 m ρ c (Proc.devRef .tc main_arg1) := h1
  unfold RA
  simp only [W3, W2, W1]
  eval_line
  simp only [l1]
  rfl

/-! ## The first aggregation -/

include h0 h1 h3 in
/-- The rows aggregated along the edges with the first layer's weights. -/
theorem eB46 : W7 m ρ c (Proc.devRef .tc main_v46) = RB m' c (Proc.devRef .tc Cert.ReferenceIdeal.main_v46) := by
  have l0 : launchContents m' c (Proc.devRef .tc Cert.ReferenceIdeal.main_arg0) = W0 m ρ c (Proc.devRef .tc main_arg0) := h0
  have l3 : launchContents m' c (Proc.devRef .tc Cert.ReferenceIdeal.main_arg3) = W0 m ρ c (Proc.devRef .tc main_arg3) := h3
  unfold RB
  simp only [W7, W6, W5]
  eval_line
  simp only [k33 m ρ c, W4_of_ne m ρ c main_v4 (by decide), W4_of_ne m ρ c main_v7 (by decide), W4_of_ne m ρ c main_v32 (by decide),
    eA4 m ρ m' c h1, eA7 m ρ m' c h1, eA32 m ρ m' c h1, rAa0 m' c, rAa3 m' c, l0, l3]
  dsimp only [proj]
  rfl

/-! ## The second edge normalisation -/

include h1 in
/-- The source indices, built again. -/
theorem eC50 : W7 m ρ c (Proc.devRef .tc main_v50) = RC m' c (Proc.devRef .tc Cert.ReferenceIdeal.main_v54) := by
  have l1 : launchContents m' c (Proc.devRef .tc Cert.ReferenceIdeal.main_arg1) = W0 m ρ c (Proc.devRef .tc main_arg1) := h1
  unfold RC
  simp only [W7, W6, W5]
  eval_line
  simp only [w4a1 m ρ c, rBa1 m' c, l1]
  rfl

include h1 in
/-- The destination indices, built again. -/
theorem eC53 : W7 m ρ c (Proc.devRef .tc main_v53) = RC m' c (Proc.devRef .tc Cert.ReferenceIdeal.main_v57) := by
  have l1 : launchContents m' c (Proc.devRef .tc Cert.ReferenceIdeal.main_arg1) = W0 m ρ c (Proc.devRef .tc main_arg1) := h1
  unfold RC
  simp only [W7, W6, W5]
  eval_line
  simp only [w4a1 m ρ c, rBa1 m' c, l1]
  rfl

include h1 h2 in
set_option maxHeartbeats 4000000 in
/-- The second layer's normalised edge weights. -/
theorem eC78 : W7 m ρ c (Proc.devRef .tc main_v78) = RC m' c (Proc.devRef .tc Cert.ReferenceIdeal.main_v82) := by
  have l1 : launchContents m' c (Proc.devRef .tc Cert.ReferenceIdeal.main_arg1) = W0 m ρ c (Proc.devRef .tc main_arg1) := h1
  have l2 : launchContents m' c (Proc.devRef .tc Cert.ReferenceIdeal.main_arg2) = W0 m ρ c (Proc.devRef .tc main_arg2) := h2
  unfold RC
  simp only [W7, W6, W5]
  eval_line
  simp only [w4a1 m ρ c, w4a2 m ρ c, rBa1 m' c, rBa2 m' c, l1, l2]
  rfl

/-! ## The second aggregation -/

include h0 h1 h2 h3 h4 h5 in
/-- The scores aggregated along the edges with the second layer's weights. -/
theorem eD : W9 m ρ c (Proc.devRef .tc main_v93) = RD m' c (Proc.devRef .tc Cert.ReferenceIdeal.main_v96) := by
  have l4 : launchContents m' c (Proc.devRef .tc Cert.ReferenceIdeal.main_arg4) = W0 m ρ c (Proc.devRef .tc main_arg4) := h4
  have l5 : launchContents m' c (Proc.devRef .tc Cert.ReferenceIdeal.main_arg5) = W0 m ρ c (Proc.devRef .tc main_arg5) := h5
  unfold RD
  simp only [W9]
  eval_line
  simp only [k80 m ρ c, W8_of_ne m ρ c main_v50 (by decide), W8_of_ne m ρ c main_v53 (by decide), W8_of_ne m ρ c main_v78 (by decide),
    eB46 m ρ m' c h0 h1 h3, eC50 m ρ m' c h1, eC53 m ρ m' c h1, eC78 m ρ m' c h1 h2, r50 m' c, rCa5 m' c, l4, l5]
  dsimp only [layerV, reluBias]
  rfl

/-! ## The result -/

include h0 h1 h2 h3 h4 h5 h6 in
/-- The two programs' results are one array. -/
theorem result_eq : W10 m ρ c (Proc.devRef .tc main_v95) = Cert.ReferenceIdeal.ValueP.res_main_v100 m' c := by
  have l6 : launchContents m' c (Proc.devRef .tc Cert.ReferenceIdeal.main_arg6) = W0 m ρ c (Proc.devRef .tc main_arg6) := h6
  rw [res_stages]
  unfold RE
  eval_line
  have c99 : ∀ v, (TRef.of (T := ⟨Cert.ReferenceIdeal.S50000x40, .f32⟩) Cert.ReferenceIdeal.main_v99).ofBuf (Val := Elt Ideal) v = v := fun v => rfl
  have c100 : ∀ v, (TRef.of (T := ⟨Cert.ReferenceIdeal.S50000x40, .f32⟩) Cert.ReferenceIdeal.main_v100).toBuf (Val := Elt Ideal) v = v := fun v => rfl
  simp only [Cert.TypedRef.ofBuf_toBuf, c99, c100, rDa6 m' c, l6]
  rw [W10_eq, binary_result', eD m ρ m' c h0 h1 h2 h3 h4 h5, w9a6 m ρ c]

end Stages

end Cert.KernelIdeal.Hand

end
-- ==== Proof.lean ====
/-
  A two-layer graph convolution followed by a row-wise log-softmax, as a program with three pipelined kernels,
  against its host reference.

  Both programs build the same normalised edge weights from the edge list (self-loops appended, degrees by a
  scatter-add, the reciprocal square root where the degree is positive), and both aggregate along the edges by a
  gather of rows, a product with the edge weights and a scatter-add — with the same host operations, in the same
  order.  They differ in three places only.  Where the reference multiplies the features by the first weight with a
  host matrix product, the kernel program runs a region over ten blocks of 5000 rows that multiplies each block by
  the weight.  Where the reference adds the first bias to the aggregated rows, takes the maximum with zero and
  multiplies by the second weight, the kernel program runs a region that does the three steps on each block of rows.
  Where the reference adds the second bias and takes the log-softmax of every row, the kernel program runs a region
  that does so on each block of rows.  Each of these computations acts on every row by itself, so a block of the
  result is a block of the whole result, and the blocks cover all rows: on the extended reals each region leaves in
  its result array exactly the array the reference's operations compute from the same inputs.  No law beyond the
  definitions of the operations is used (the sums are the same sums, term by term), so no input has to be finite.

  The kernel program is then one line of host operations from the launch contents, the regions standing in it as
  single operations, and the reference is another such line.  Evaluating both lines at their result buffers gives the
  same term of the argument arrays.
-/
import proofs.«157734_j29592324669624_2_alg».proof.Defs
import proofs.«157734_j29592324669624_2_alg».proof.Proof.Gen.Kernel
import proofs.«157734_j29592324669624_2_alg».proof.Proof.Gen.Kernel.Skeleton
import proofs.«157734_j29592324669624_2_alg».proof.Proof.Gen.Kernel.Launch
import proofs.«157734_j29592324669624_2_alg».proof.Proof.Gen.Kernel.Points
import proofs.«157734_j29592324669624_2_alg».proof.Proof.Gen.Kernel.Frame
import proofs.«157734_j29592324669624_2_alg».proof.Proof.Gen.KernelIdeal
import proofs.«157734_j29592324669624_2_alg».proof.Proof.Gen.KernelIdeal.Skeleton
import proofs.«157734_j29592324669624_2_alg».proof.Proof.Gen.KernelIdeal.Launch
import proofs.«157734_j29592324669624_2_alg».proof.Proof.Gen.KernelIdeal.Points
import proofs.«157734_j29592324669624_2_alg».proof.Proof.Gen.KernelIdeal.Frame
import proofs.«157734_j29592324669624_2_alg».proof.Proof.Gen.ReferenceIdeal
import proofs.«157734_j29592324669624_2_alg».proof.Proof.Gen.Pre_finite_inputs
import proofs.«157734_j29592324669624_2_alg».proof.Proof.KernelRun
import proofs.«157734_j29592324669624_2_alg».proof.Proof.RefRunP
import proofs.«157734_j29592324669624_2_alg».proof.Proof.Bridge
import Idealize.ShloMosaic.Adequacy
import Idealize.ShloMosaic.Init

noncomputable section

namespace Cert.Proof

open Idealize.ShloMosaic Idealize.SL.Sem

/-- The word-level kernel program runs and leaves its arguments unchanged. -/
theorem frame_k : Cert.frame_Kernel := fun m ρ _ => Cert.Kernel.Gen.frame m ρ

/-- The idealized kernel program runs and leaves its arguments unchanged. -/
theorem frame_ki : Cert.frame_KernelIdeal := fun m ρ _ => Cert.KernelIdeal.Gen.frame m ρ

/-- The idealized reference runs and leaves its arguments unchanged: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- From memories agreeing on the arguments the two idealized programs end with the same result array: the kernel
    program's result is what the fold of its segments leaves in the last region's output array, the reference's what
    the fold of its operations leaves in its result buffer, and the two are one term of the arguments. -/
theorem algebraic : Cert.algebraic_KernelIdeal_ReferenceIdeal := by
  intro m ρ m' ρ' _ hagree
  refine ⟨fun c => Cert.KernelIdeal.Gen.W10 m ρ c (Proc.devRef .tc Cert.KernelIdeal.main_v95),
    Cert.KernelIdeal.Hand.run_fold (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨a0, a1, a2, a3, a4, a5, a6⟩ := hagree c
  exact (Cert.KernelIdeal.Hand.result_eq m ρ m' c a0 a1 a2 a3 a4 a5 a6).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
